-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x2048 : Shape := ⟨2, ![4, 2048]⟩
abbrev S2048 : Shape := ⟨1, ![2048]⟩
abbrev S6144x2048 : Shape := ⟨2, ![6144, 2048]⟩
abbrev S6144 : Shape := ⟨1, ![6144]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_

variable [Facts]

def fn_part2 {F : FTy → Type} [FloatOps F] (main_arg7 : FVec F S6144 .f32) (main_v33 : IVec S_ 1) : IVec S_ 1 :=
  let main_v34 : FVec F S6144 .f32 := Host.absf main_arg7
  let main_cst_12 : FVec F S_ .f32 := constant S_ .f32 0x7F800000#32
  let main_v35 : FVec F S6144 .f32 := broadcastInDim S6144 ![] bcast_S_S6144 main_cst_12
  let main_v36 : IVec S6144 1 := cmpf .olt main_v34 main_v35
  let main_c_13 : IVec S_ 1 := constantI S_ 1 1#1
  let main_v37 : IVec S_ 1 := (fun x v => Host.reduce IntOp.andi x v reducesTo_S6144_S_d0 h_S_) main_v36 main_c_13
  let main_v38 : IVec S_ 1 := andi main_v33 main_v37
  main_v38

def fn_part1 {F : FTy → Type} [FloatOps F] (main_arg4 : FVec F S2048 .f32) (main_arg5 : FVec F S2048 .f32) (main_arg6 : FVec F S6144x2048 .f32) (main_arg7 : FVec F S6144 .f32) (main_v13 : IVec S_ 1) (main_v16 : IVec S4x2048 1) : IVec S_ 1 :=
  let main_c_5 : IVec S_ 1 := constantI S_ 1 1#1
  let main_v17 : IVec S_ 1 := (fun x v => Host.reduce IntOp.andi x v reducesTo_S4x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S6144x2048 .f32 := Host.absf main_arg6
  let main_cst_10 : FVec F S_ .f32 := constant S_ .f32 0x7F800000#32
  let main_v30 : FVec F S6144x2048 .f32 := broadcastInDim S6144x2048 ![] bcast_S_S6144x2048 main_cst_10
  let main_v31 : IVec S6144x2048 1 := cmpf .olt main_v29 main_v30
  let main_c_11 : IVec S_ 1 := constantI S_ 1 1#1
  let main_v32 : IVec S_ 1 := (fun x v => Host.reduce IntOp.andi x v reducesTo_S6144x2048_S_d0_1 h_S_) main_v31 main_c_11
  let main_v33 : IVec S_ 1 := andi main_v28 main_v32
  fn_part2 (F := F) main_arg7 main_v33

def fn {F : FTy → Type} [FloatOps F] (main_arg0 : FVec F S4x4096x2048 .f32) (main_arg1 : FVec F S4x4096x2048 .f32) (main_arg2 : FVec F S4x2048 .f32) (main_arg3 : FVec F S4x2048 .f32) (main_arg4 : FVec F S2048 .f32) (main_arg5 : FVec F S2048 .f32) (main_arg6 : FVec F S6144x2048 .f32) (main_arg7 : FVec F S6144 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_v14 : FVec F S4x2048 .f32 := Host.absf main_arg3
  let main_cst_4 : FVec F S_ .f32 := constant S_ .f32 0x7F800000#32
  let main_v15 : FVec F S4x2048 .f32 := broadcastInDim S4x2048 ![] bcast_S_S4x2048 main_cst_4
  let main_v16 : IVec S4x2048 1 := cmpf .olt main_v14 main_v15
  fn_part1 (F := F) main_arg4 main_arg5 main_arg6 main_arg7 main_v13 main_v16
-- ==== Kernel.lean ====
abbrev S4x4096x2048 : Shape := ⟨3, ![4, 4096, 2048]⟩
abbrev S4x2048 : Shape := ⟨2, ![4, 2048]⟩
abbrev S2048 : Shape := ⟨1, ![2048]⟩
abbrev S6144x2048 : Shape := ⟨2, ![6144, 2048]⟩
abbrev S6144 : Shape := ⟨1, ![6144]⟩
abbrev S4x1x2048 : Shape := ⟨3, ![4, 1, 2048]⟩
abbrev S1x2048 : Shape := ⟨2, ![1, 2048]⟩
abbrev S1x6144 : Shape := ⟨2, ![1, 6144]⟩
abbrev S2048x6144 : Shape := ⟨2, ![2048, 6144]⟩
abbrev S1x128x2048 : Shape := ⟨3, ![1, 128, 2048]⟩
abbrev S1x1x2048 : Shape := ⟨3, ![1, 1, 2048]⟩
abbrev S128x2048 : Shape := ⟨2, ![128, 2048]⟩
abbrev S128 : Shape := ⟨1, ![128]⟩
abbrev S128x1 : Shape := ⟨2, ![128, 1]⟩
abbrev S128x6144 : Shape := ⟨2, ![128, 6144]⟩

abbrev nBuf : Space → Nat
  | .hbm => 17
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S6144x2048, .f32⟩
  | .hbm, ⟨7, _⟩ => ⟨S6144, .f32⟩
  | .hbm, ⟨8, _⟩ => ⟨S4x1x2048, .f32⟩
  | .hbm, ⟨9, _⟩ => ⟨S4x1x2048, .f32⟩
  | .hbm, ⟨10, _⟩ => ⟨S1x2048, .f32⟩
  | .hbm, ⟨11, _⟩ => ⟨S1x2048, .f32⟩
  | .hbm, ⟨12, _⟩ => ⟨S1x6144, .f32⟩
  | .hbm, ⟨13, _⟩ => ⟨S2048x6144, .f32⟩
  | .hbm, ⟨14, _⟩ => ⟨S2048x6144, .bf16⟩
  | .hbm, ⟨15, _⟩ => ⟨S4x4096x2048, .f32⟩
  | .hbm, ⟨16, _⟩ => ⟨S4x4096x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S2048x6144, .bf16⟩
  | .local _ .vmem, ⟨11, _⟩ => ⟨S1x6144, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S4x2048_S4x1x2048 : S4x2048.ShapeCasts S4x1x2048
  shapeCasts_S2048_S1x2048 : S2048.ShapeCasts S1x2048
  shapeCasts_S6144_S1x6144 : S6144.ShapeCasts S1x6144
  transposes_S6144x2048_S2048x6144_1_0 : S6144x2048.Transposes [1, 0] S2048x6144
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  inb_S2048x6144_S2048x6144_0_0 : ∀ a, (![0, 0] : Fin 2 → Nat) a + S2048x6144.size a ≤ S2048x6144.size a
  h_S2048x6144 : 0 < S2048x6144.numel
  shapeCasts_S2048x6144_S2048x6144 : S2048x6144.ShapeCasts S2048x6144
  reduces_S128x2048_S128 : S128x2048.Reduces [1] S128
  shapeCasts_S128_S128x1 : S128.ShapeCasts S128x1
  broadcasts_S128x1_S128x2048 : S128x1.Broadcasts S128x2048
  broadcasts_S1x2048_S128x2048 : S1x2048.Broadcasts S128x2048
  broadcasts_S1x6144_S128x6144 : S1x6144.Broadcasts S128x6144
  slices_S128x6144_o0_0_S128x2048 : S128x6144.Slices ![0, 0] S128x2048
  slices_S128x6144_o0_2048_S128x2048 : S128x6144.Slices ![0, 2048] S128x2048
  slices_S128x6144_o0_4096_S128x2048 : S128x6144.Slices ![0, 4096] S128x2048
  shapeCasts_S128x2048_S1x128x2048 : S128x2048.ShapeCasts S1x128x2048
  dot_S128x2048_S2048x6144_S128x6144_1_0_0_1_n_n_wf : DotDims.WF S128x2048 S2048x6144 S128x6144 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S4x4096x2048.size a
  hwx0_0 : ∀ i : grid0.Coords, EltTy.bits .f32 = 32 ∨ (Rect.block (s := S4x4096x2048) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S4x4096x2048.size a
  hwx0_1 : ∀ i : grid0.Coords, EltTy.bits .f32 = 32 ∨ (Rect.block (s := S4x4096x2048) S1x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x2048.size a
  hwx0_2 : ∀ i : grid0.Coords, EltTy.bits .f32 = 32 ∨ (Rect.block (s := S4x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x2048.size a
  hwx0_3 : ∀ i : grid0.Coords, EltTy.bits .f32 = 32 ∨ (Rect.block (s := S4x1x2048) S1x1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x6144.size a ≤ S2048x6144.size a
  hwx0_6 : ∀ i : grid0.Coords, EltTy.bits .bf16 = 32 ∨ (Rect.block (s := S2048x6144) S2048x6144.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x6144.size a ≤ S1x6144.size a
  hwx0_7 : ∀ i : grid0.Coords, EltTy.bits .f32 = 32 ∨ (Rect.block (s := S1x6144) S1x6144.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x2048.size a ≤ S4x4096x2048.size a
  hwx0_8 : ∀ i : grid0.Coords, EltTy.bits .f32 = 32 ∨ (Rect.block (s := S4x4096x2048) S1x128x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x2048.size a ≤ S4x4096x2048.size a
  hwx0_9 : ∀ i : grid0.Coords, EltTy.bits .f32 = 32 ∨ (Rect.block (s := S4x4096x2048) S1x128x2048.size (cc0_transform_9 i) (hinb0_9 i)).WholeWords (EltTy.packing .f32)

variable [Facts₀]

def dot_S128x2048_S2048x6144_S128x6144_1_0_0_1_n_n : DotDims S128x2048 S2048x6144 S128x6144 where
  lhsContracting := [1]
  rhsContracting := [0]
  lhsNonContracting := [0]
  rhsNonContracting := [1]
  lhsBatch := []
  rhsBatch := []
  wf := dot_S128x2048_S2048x6144_S128x6144_1_0_0_1_n_n_wf

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S2048x6144.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x6144.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7_0) S1x128x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_1) S1x128x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x2048 : Shape := ⟨2, ![4, 2048]⟩
abbrev S2048 : Shape := ⟨1, ![2048]⟩
abbrev S6144x2048 : Shape := ⟨2, ![6144, 2048]⟩
abbrev S6144 : Shape := ⟨1, ![6144]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x6144 : Shape := ⟨3, ![4, 4096, 6144]⟩
abbrev S1x1x6144 : Shape := ⟨3, ![1, 1, 6144]⟩
abbrev S4x1x2048 : Shape := ⟨3, ![4, 1, 2048]⟩

abbrev nBuf : Space → Nat
  | .hbm => 82
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S6144x2048, .f32⟩
  | .hbm, ⟨7, _⟩ => ⟨S6144, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x4096x6144, .f32⟩
  | .hbm, ⟨25, _⟩ => ⟨S1x1x6144, .f32⟩
  | .hbm, ⟨26, _⟩ => ⟨S4x4096x6144, .f32⟩
  | .hbm, ⟨27, _⟩ => ⟨S4x4096x6144, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S_, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x4096x2048, .f32⟩
  | .hbm, ⟨38, _⟩ => ⟨S4x4096x2048, .f32⟩
  | .hbm, ⟨39, _⟩ => ⟨S_, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x2048, .i1⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S_, .f32⟩
  | .hbm, ⟨56, _⟩ => ⟨S4x4096x2048, .f32⟩
  | .hbm, ⟨57, _⟩ => ⟨S4x4096x2048, .f32⟩
  | .hbm, ⟨58, _⟩ => ⟨S_, .f32⟩
  | .hbm, ⟨59, _⟩ => ⟨S4x4096x2048, .f32⟩
  | .hbm, ⟨60, _⟩ => ⟨S4x4096x2048, .f32⟩
  | .hbm, ⟨61, _⟩ => ⟨S4x1x2048, .f32⟩
  | .hbm, ⟨62, _⟩ => ⟨S_, .f32⟩
  | .hbm, ⟨63, _⟩ => ⟨S4x1x2048, .f32⟩
  | .hbm, ⟨64, _⟩ => ⟨S4x1x2048, .f32⟩
  | .hbm, ⟨65, _⟩ => ⟨S4x4096x2048, .f32⟩
  | .hbm, ⟨66, _⟩ => ⟨S4x4096x2048, .f32⟩
  | .hbm, ⟨67, _⟩ => ⟨S4x1x2048, .f32⟩
  | .hbm, ⟨68, _⟩ => ⟨S4x4096x2048, .f32⟩
  | .hbm, ⟨69, _⟩ => ⟨S4x4096x2048, .f32⟩
  | .hbm, ⟨70, _⟩ => ⟨S1x1x2048, .f32⟩
  | .hbm, ⟨71, _⟩ => ⟨S4x4096x2048, .f32⟩
  | .hbm, ⟨72, _⟩ => ⟨S4x4096x2048, .f32⟩
  | .hbm, ⟨73, _⟩ => ⟨S4x4096x2048, .f32⟩
  | .hbm, ⟨74, _⟩ => ⟨S4x4096x2048, .f32⟩
  | .hbm, ⟨75, _⟩ => ⟨S4x4096x2048, .f32⟩
  | .hbm, ⟨76, _⟩ => ⟨S_, .f32⟩
  | .hbm, ⟨77, _⟩ => ⟨S4x4096x2048, .f32⟩
  | .hbm, ⟨78, _⟩ => ⟨S4x4096x2048, .f32⟩
  | .hbm, ⟨79, _⟩ => ⟨S4x4096x2048, .f32⟩
  | .hbm, ⟨80, _⟩ => ⟨S4x4096x2048, .f32⟩
  | .hbm, ⟨81, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S6144_S1x1x6144_2 : S6144.BroadcastsInDim S1x1x6144 (![2] : Fin 1 → Fin S1x1x6144.rank)
  bcast_S1x1x6144_S4x4096x6144_0_1_2 : S1x1x6144.BroadcastsInDim S4x4096x6144 (![0, 1, 2] : Fin 3 → Fin S4x4096x6144.rank)
  slices_S4x4096x6144_S4x4096x2048_0_0_0 : S4x4096x6144.Slices ![0, 0, 0] S4x4096x2048
  slices_S4x4096x6144_S4x4096x2048_0_0_2048 : S4x4096x6144.Slices ![0, 0, 2048] S4x4096x2048
  slices_S4x4096x6144_S4x4096x2048_0_0_4096 : S4x4096x6144.Slices ![0, 0, 4096] S4x4096x2048
  bcast_S_S4x4096x2048 : S_.BroadcastsInDim S4x4096x2048 (![] : Fin 0 → Fin S4x4096x2048.rank)
  bcast_S4x2048_S4x1x2048_0_2 : S4x2048.BroadcastsInDim S4x1x2048 (![0, 2] : Fin 2 → Fin S4x1x2048.rank)
  bcast_S_S4x1x2048 : S_.BroadcastsInDim S4x1x2048 (![] : Fin 0 → Fin S4x1x2048.rank)
  bcast_S4x1x2048_S4x4096x2048_0_1_2 : S4x1x2048.BroadcastsInDim S4x4096x2048 (![0, 1, 2] : Fin 3 → Fin S4x4096x2048.rank)
  dot_S4x4096x2048_S6144x2048_S4x4096x6144_2_1_01_0_n_n_wf : DotDims.WF S4x4096x2048 S6144x2048 S4x4096x6144 [2] [1] [0, 1] [0] [] []

variable [Facts₀]

def dot_S4x4096x2048_S6144x2048_S4x4096x6144_2_1_01_0_n_n : DotDims S4x4096x2048 S6144x2048 S4x4096x6144 where
  lhsContracting := [2]
  rhsContracting := [1]
  lhsNonContracting := [0, 1]
  rhsNonContracting := [0]
  lhsBatch := []
  rhsBatch := []
  wf := dot_S4x4096x2048_S6144x2048_S4x4096x6144_2_1_01_0_n_n_wf

class Facts : Prop extends Facts₀ where

variable [Facts]
-- ==== Proof.Spec.lean ====
/-
  The function both programs compute, one row and one cell at a time, on the extended reals.

  A row of `x` (2048 entries) is scaled by the reciprocal root of its mean square plus a small
  constant and by the weight vector (`rowXn`); the scaled row is multiplied into the 6144 × 2048
  matrix and the bias is added (`rowCtrl`); the three thirds of that 6144-vector drive two logistic
  gates and one softplus gate. The cell `d` of the row then combines the scaled entry, modulated
  by `1 + scale` and shifted (`cellAda`), with the row of `v`: `cellVnext` is
  `σ(ctrl d) · v − softplus(ctrl (2048 + d)) · (ada − μ)` and `cellOut` is
  `x + (ada + (dt · σ(ctrl (4096 + d))) · vnext)`.

  The constants are kept as the binary32 words both programs print; only the words of `0` and `1`
  are ever evaluated.
-/
import Idealize.ShloMosaic.PureOps.Ideal.Laws
import Idealize.ShloMosaic.Lib.ValueIdx

noncomputable section

namespace Cert.Spec

open Idealize.ShloMosaic Idealize.ShloMosaic.ValueIdx

/-- The word of `0.0`. -/
abbrev cZero : EReal := Ideal.ofBits .f32 0x00000000#32
/-- The word of `1.0`. -/
abbrev cOne : EReal := Ideal.ofBits .f32 0x3F800000#32
/-- The word of `2048.0`, the row length the mean divides by. -/
abbrev cLen : EReal := Ideal.ofBits .f32 0x45000000#32
/-- The word of the small constant added to the mean square. -/
abbrev cEps : EReal := Ideal.ofBits .f32 0x358637BD#32
/-- The word of the step `dt`. -/
abbrev cDt : EReal := Ideal.ofBits .f32 0x3DCCCCCD#32

theorem cZero_eq : cZero = 0 := Ideal.ofBits_zero_f32

theorem cOne_eq : cOne = 1 := IdealRules.sign_bit.ideal_onePat .f32

/-- The sum of the squares of a row. -/
def rowSsq (xr : Fin 2048 → EReal) : EReal := ∑ k : Fin 2048, xr k * xr k

/-- The reciprocal root of the row's mean square plus the small constant. -/
def rowRms (xr : Fin 2048 → EReal) : EReal := Ideal.rsqrt (Ideal.div (rowSsq xr) cLen + cEps)

/-- The normalised, weighted row. -/
def rowXn (xr nw : Fin 2048 → EReal) (d : Fin 2048) : EReal := xr d * rowRms xr * nw d

/-- The controller's output for the row: the normalised row against row `e` of the matrix, plus the bias. -/
def rowCtrl (xr nw : Fin 2048 → EReal) (W : Fin 6144 → Fin 2048 → EReal) (bias : Fin 6144 → EReal) (e : Fin 6144) : EReal :=
  (∑ k : Fin 2048, rowXn xr nw k * W e k) + bias e

/-- Column `d` of the first, second and last third of the controller's output. -/
abbrev third0 (d : Fin 2048) : Fin 6144 := ⟨d.val, by have := d.isLt; omega⟩
abbrev third1 (d : Fin 2048) : Fin 6144 := ⟨d.val + 2048, by have := d.isLt; omega⟩
abbrev third2 (d : Fin 2048) : Fin 6144 := ⟨d.val + 4096, by have := d.isLt; omega⟩

/-- `log (1 + eᶻ)` as both programs compute it: `max z 0 + log1p (e^(−|z − 0|))`, behind a guard `z − 0 ≠ z − 0`
    that no extended real satisfies. -/
def softplus (z : EReal) : EReal :=
  Scalar.select (Ideal.cmp .one (z - cZero) (z - cZero)) (z + cZero)
    (max z cZero + Ideal.log1p (Ideal.exp (cZero - max (z - cZero) (-(z - cZero)))))

/-- The modulated, shifted entry `xn · (1 + scale) + shift`. -/
def cellAda (xr nw sc sh : Fin 2048 → EReal) (d : Fin 2048) : EReal :=
  rowXn xr nw d * (cOne + sc d) + sh d

/-- The second result at cell `d` of a row. -/
def cellVnext (xr vr nw sc sh mu : Fin 2048 → EReal) (W : Fin 6144 → Fin 2048 → EReal) (bias : Fin 6144 → EReal)
    (d : Fin 2048) : EReal :=
  Ideal.logistic (rowCtrl xr nw W bias (third0 d)) * vr d
    - softplus (rowCtrl xr nw W bias (third1 d)) * (cellAda xr nw sc sh d - mu d)

/-- The first result at cell `d` of a row. -/
def cellOut (xr vr nw sc sh mu : Fin 2048 → EReal) (W : Fin 6144 → Fin 2048 → EReal) (bias : Fin 6144 → EReal)
    (d : Fin 2048) : EReal :=
  xr d + (cellAda xr nw sc sh d
    + (cDt * Ideal.logistic (rowCtrl xr nw W bias (third2 d))) * cellVnext xr vr nw sc sh mu W bias d)

/-! ## The two result arrays as functions of the eight argument arrays -/

abbrev Arr3 := (⟨3, ![4, 4096, 2048]⟩ : Shape).Idx → EReal
abbrev Arr2 := (⟨2, ![4, 2048]⟩ : Shape).Idx → EReal
abbrev Arr1 := (⟨1, ![2048]⟩ : Shape).Idx → EReal
abbrev ArrW := (⟨2, ![6144, 2048]⟩ : Shape).Idx → EReal
abbrev ArrB := (⟨1, ![6144]⟩ : Shape).Idx → EReal

/-- The first result: entry `(b, s, d)` is `cellOut` of row `(b, s)` of `x` and `v`, row `b` of `shift` and
    `scale`, and the whole weight, `μ`, matrix and bias. -/
def gOut (x v : Arr3) (shift scale : Arr2) (nw mu : Arr1) (W : ArrW) (bias : ArrB) : Arr3 := fun i =>
  cellOut (fun k => x (ix3 (i 0) (i 1) k)) (fun k => v (ix3 (i 0) (i 1) k)) (fun k => nw (ix1 k))
    (fun k => scale (ix2 (i 0) k)) (fun k => shift (ix2 (i 0) k)) (fun k => mu (ix1 k))
    (fun e k => W (ix2 e k)) (fun e => bias (ix1 e)) (i 2)

/-- The second result, likewise. -/
def gVnext (x v : Arr3) (shift scale : Arr2) (nw mu : Arr1) (W : ArrW) (bias : ArrB) : Arr3 := fun i =>
  cellVnext (fun k => x (ix3 (i 0) (i 1) k)) (fun k => v (ix3 (i 0) (i 1) k)) (fun k => nw (ix1 k))
    (fun k => scale (ix2 (i 0) k)) (fun k => shift (ix2 (i 0) k)) (fun k => mu (ix1 k))
    (fun e k => W (ix2 e k)) (fun e => bias (ix1 e)) (i 2)

end Cert.Spec

end
-- ==== Proof.BlockRow.lean ====
/-
  One row of a block, before the matrix product.

  The lane reduction of the squared x block at row `r` is the sum over the row of the squares, and the
  normalised, weighted block at `(r, d)` is the row function `rowXn` of row `r` of the x block and of the
  one-row weight block.
-/
import proofs.«102488_j39926015984295_2_alg».proof.Proof.Gen.KernelIdeal.Value
import proofs.«102488_j39926015984295_2_alg».proof.Proof.Spec
import Idealize.ShloMosaic.Lib.ValueIdx
import Idealize.ShloMosaic.Lib.Pipeline.Value
import Idealize.ShloMosaic.PureOps.Ideal.Laws

noncomputable section

namespace Cert.KernelIdeal.BlockRow

open Cert.KernelIdeal Cert.KernelIdeal.Gen Idealize.ShloMosaic Idealize.ShloMosaic.ValueIdx

/-- Row `r` of a block with a leading unit axis, read through the cast that drops that axis. -/
theorem rowCast (P0 : Vec Ideal S1x128x2048 .f32) (r : Fin 128) (k : Fin 2048) :
    shapeCast S128x2048 P0 shapeCasts_S1x128x2048_S128x2048 (ix2 r k) = P0 (ix3 0 r k) := by
  refine shapeCast_apply _ _ (ix2 r k) (ix3 0 r k) ?_
  rw [Shape.rowMajor_val_two, Shape.rowMajor_val_three]
  show (0 * 128 + r.val) * 2048 + k.val = r.val * 2048 + k.val
  omega

/-- The lane reduction of the squared block at row `r` is the row's sum of squares. -/
theorem ssq_eq (P0 : Vec Ideal S1x128x2048 .f32) (r : Fin 128) :
    multiReduction (F := Ideal) .add [1] S128 (mulf (shapeCast S128x2048 P0 shapeCasts_S1x128x2048_S128x2048) (shapeCast S128x2048 P0 shapeCasts_S1x128x2048_S128x2048)) 0x00000000#32 reduces_S128x2048_S128 (.inl rfl) rfl (ix1 r)
      = Cert.Spec.rowSsq (fun k => P0 (ix3 0 r k)) := by
  refine (Ideal.multiReduction_add_single _ 0x00000000#32 reduces_S128x2048_S128 (.inl rfl) rfl (ix1 r)).trans ?_
  unfold Cert.Spec.rowSsq
  refine Finset.sum_congr rfl fun (k : Fin 2048) _ => ?_
  have hl : reduces_S128x2048_S128.lift (ix1 r) k = ix2 r k := by
    funext a; match a with | ⟨0, _⟩ => rfl | ⟨1, _⟩ => rfl
  show shapeCast S128x2048 P0 shapeCasts_S1x128x2048_S128x2048 (reduces_S128x2048_S128.lift (ix1 r) k)
      * shapeCast S128x2048 P0 shapeCasts_S1x128x2048_S128x2048 (reduces_S128x2048_S128.lift (ix1 r) k)
      = P0 (ix3 0 r k) * P0 (ix3 0 r k)
  rw [hl, rowCast]

/-- The normalised, weighted block at `(r, d)`. -/
theorem xn_eq (P0 : Vec Ideal S1x128x2048 .f32) (P1 : Vec Ideal S1x2048 .f32) (r : Fin 128) (d : Fin 2048) :
    k0_pay10 (F := Ideal) P0 P1 (ix2 r d) = Cert.Spec.rowXn (fun k => P0 (ix3 0 r k)) (fun k => P1 (ix2 0 k)) d := by
  unfold k0_pay10 k0_pay5 Cert.Spec.rowXn Cert.Spec.rowRms
  have e1 : shapeCast S128x1 (multiReduction (F := Ideal) .add [1] S128 (mulf (shapeCast S128x2048 P0 shapeCasts_S1x128x2048_S128x2048) (shapeCast S128x2048 P0 shapeCasts_S1x128x2048_S128x2048)) 0x00000000#32 reduces_S128x2048_S128 (.inl rfl) rfl) shapeCasts_S128_S128x1 (ix2 r (0 : Fin 1))
      = Cert.Spec.rowSsq (fun k => P0 (ix3 0 r k)) :=
    (shapeCast_apply _ _ (ix2 r (0 : Fin 1)) (ix1 r) (by
      rw [Shape.rowMajor_val_one, Shape.rowMajor_val_two]; show r.val = r.val * 1 + 0; omega)).trans (ssq_eq P0 r)
  have e2 : broadcastTo S128x2048 (rsqrt (F := Ideal) (addf (divf (shapeCast S128x1 (multiReduction (F := Ideal) .add [1] S128 (mulf (shapeCast S128x2048 P0 shapeCasts_S1x128x2048_S128x2048) (shapeCast S128x2048 P0 shapeCasts_S1x128x2048_S128x2048)) 0x00000000#32 reduces_S128x2048_S128 (.inl rfl) rfl) shapeCasts_S128_S128x1) (broadcast S128x1 (Scalar.ofBits .f32 0x45000000#32))) (broadcast S128x1 (Scalar.ofBits .f32 0x358637BD#32)))) broadcasts_S128x1_S128x2048 (ix2 r d)
      = Ideal.rsqrt (Ideal.div (Cert.Spec.rowSsq fun k => P0 (ix3 0 r k)) Cert.Spec.cLen + Cert.Spec.cEps) := by
    refine (broadcastTo_apply _ _ (ix2 r d) (ix2 r (0 : Fin 1)) (fun a => match a with
      | ⟨0, _⟩ => by show r.val = (if (128 : Nat) = 1 then 0 else r.val); rw [if_neg (by decide)]
      | ⟨1, _⟩ => by show 0 = (if (1 : Nat) = 1 then 0 else d.val); rw [if_pos rfl])).trans ?_
    exact congrArg (fun z => Ideal.rsqrt (Ideal.div z Cert.Spec.cLen + Cert.Spec.cEps)) e1
  have e3 : broadcastTo S128x2048 (shapeCast S1x2048 P1 shapeCasts_S1x2048_S1x2048) broadcasts_S1x2048_S128x2048 (ix2 r d) = P1 (ix2 0 d) := by
    refine (broadcastTo_apply _ _ (ix2 r d) (ix2 (0 : Fin 1) d) (fun a => match a with
      | ⟨0, _⟩ => by show 0 = (if (1 : Nat) = 1 then 0 else r.val); rw [if_pos rfl]
      | ⟨1, _⟩ => by show d.val = (if (2048 : Nat) = 1 then 0 else d.val); rw [if_neg (by decide)])).trans ?_
    rw [shapeCast_self]
  exact congrArg₂ (· * ·) (congrArg₂ (· * ·) (rowCast P0 r d) e2) e3

end Cert.KernelIdeal.BlockRow

end
-- ==== Proof.BlockCtrl.lean ====
/-
  One row of a block through the matrix product.

  The block's product with the 2048 × 6144 matrix block, into a zero accumulator, is at `(r, e)` the sum over the
  contracted index `k` of the left operand at `(r, k)` times the matrix block at `(k, e)`; with the bias row added,
  the body's 128 × 6144 value at `(r, e)` is the row function `rowCtrl` of row `r`.
-/
import proofs.«102488_j39926015984295_2_alg».proof.Proof.BlockRow

noncomputable section

namespace Cert.KernelIdeal.BlockCtrl

open Cert.KernelIdeal Cert.KernelIdeal.Gen Idealize.ShloMosaic Idealize.ShloMosaic.ValueIdx

theorem lhs0 (i : S128x6144.Idx) (q : dot_S128x2048_S2048x6144_S128x6144_1_0_0_1_n_n.contr.Idx) :
    (dot_S128x2048_S2048x6144_S128x6144_1_0_0_1_n_n.lhsIdx i q 0).val = (i 0).val := by
  unfold DotDims.lhsIdx
  rw [dif_neg (show ¬(0 : Fin S128x2048.rank) ∈ dot_S128x2048_S2048x6144_S128x6144_1_0_0_1_n_n.lhsBatch by decide), dif_pos (show (0 : Fin S128x2048.rank) ∈ dot_S128x2048_S2048x6144_S128x6144_1_0_0_1_n_n.lhsNonContracting by decide)]
  rfl

theorem lhs1 (i : S128x6144.Idx) (q : dot_S128x2048_S2048x6144_S128x6144_1_0_0_1_n_n.contr.Idx) :
    (dot_S128x2048_S2048x6144_S128x6144_1_0_0_1_n_n.lhsIdx i q 1).val = (q ⟨0, by decide⟩).val :=
  dot_S128x2048_S2048x6144_S128x6144_1_0_0_1_n_n.lhsIdx_val_of_single rfl i q

theorem rhs0 (i : S128x6144.Idx) (q : dot_S128x2048_S2048x6144_S128x6144_1_0_0_1_n_n.contr.Idx) :
    (dot_S128x2048_S2048x6144_S128x6144_1_0_0_1_n_n.rhsIdx i q 0).val = (q ⟨0, by decide⟩).val :=
  dot_S128x2048_S2048x6144_S128x6144_1_0_0_1_n_n.rhsIdx_val_of_single rfl i q

theorem rhs1 (i : S128x6144.Idx) (q : dot_S128x2048_S2048x6144_S128x6144_1_0_0_1_n_n.contr.Idx) :
    (dot_S128x2048_S2048x6144_S128x6144_1_0_0_1_n_n.rhsIdx i q 1).val = (i 1).val := by
  unfold DotDims.rhsIdx
  rw [dif_neg (show ¬(1 : Fin S2048x6144.rank) ∈ dot_S128x2048_S2048x6144_S128x6144_1_0_0_1_n_n.rhsBatch by decide), dif_pos (show (1 : Fin S2048x6144.rank) ∈ dot_S128x2048_S2048x6144_S128x6144_1_0_0_1_n_n.rhsNonContracting by decide)]
  rfl

/-- The product into a zero accumulator at `(r, e)`: the sum over `k` of left `(r, k)` times right `(k, e)`. -/
theorem matmul_at (L : FVec Ideal S128x2048 .bf16) (R : FVec Ideal S2048x6144 .bf16) (r : Fin 128) (e : Fin 6144) :
    matmul (F := Ideal) dot_S128x2048_S2048x6144_S128x6144_1_0_0_1_n_n none L R (constant S128x6144 .f32 0x00000000#32) (ix2 r e)
      = ∑ k : Fin 2048, L (ix2 r k) * R (ix2 k e) := by
  simp only [matmul]
  rw [Ideal.matmul_constant_zero_apply, ← Equiv.sum_comp (contrEquiv1 dot_S128x2048_S2048x6144_S128x6144_1_0_0_1_n_n 2048 rfl rfl).symm]
  refine Finset.sum_congr rfl fun k _ => ?_
  have hk := contrEquiv1_symm_val dot_S128x2048_S2048x6144_S128x6144_1_0_0_1_n_n 2048 rfl rfl k
  have el : dot_S128x2048_S2048x6144_S128x6144_1_0_0_1_n_n.lhsIdx (ix2 r e) ((contrEquiv1 dot_S128x2048_S2048x6144_S128x6144_1_0_0_1_n_n 2048 rfl rfl).symm k) = ix2 r k := funext fun a => Fin.ext (by
    match a with
    | ⟨0, _⟩ => exact lhs0 _ _
    | ⟨1, _⟩ => exact (lhs1 _ _).trans hk)
  have er : dot_S128x2048_S2048x6144_S128x6144_1_0_0_1_n_n.rhsIdx (ix2 r e) ((contrEquiv1 dot_S128x2048_S2048x6144_S128x6144_1_0_0_1_n_n 2048 rfl rfl).symm k) = ix2 k e := funext fun a => Fin.ext (by
    match a with
    | ⟨0, _⟩ => exact (rhs0 _ _).trans hk
    | ⟨1, _⟩ => exact rhs1 _ _)
  rw [el, er]

/-- The body's 128 × 6144 value at `(r, e)`. -/
theorem ctrl_eq (P0 : Vec Ideal S1x128x2048 .f32) (P1 : Vec Ideal S1x2048 .f32) (P4 : Vec Ideal S1x6144 .f32)
    (P5 : Vec Ideal S2048x6144 .bf16) (r : Fin 128) (e : Fin 6144) :
    k0_pay11 (F := Ideal) P0 P1 P4 P5 (ix2 r e)
      = Cert.Spec.rowCtrl (fun k => P0 (ix3 0 r k)) (fun k => P1 (ix2 0 k)) (fun e k => P5 (ix2 k e)) (fun e => P4 (ix2 0 e)) e := by
  unfold k0_pay11 Cert.Spec.rowCtrl
  have em : matmul (F := Ideal) (φ₁ := .bf16) (φ₂ := .bf16) dot_S128x2048_S2048x6144_S128x6144_1_0_0_1_n_n none (truncf .bf16 (k0_pay10 (F := Ideal) P0 P1) bitsLt_bf16_f32) (shapeCast S2048x6144 P5 shapeCasts_S2048x6144_S2048x6144 : FVec Ideal S2048x6144 .bf16) (constant S128x6144 .f32 0x00000000#32) (ix2 r e)
      = ∑ k : Fin 2048, Cert.Spec.rowXn (fun k => P0 (ix3 0 r k)) (fun k => P1 (ix2 0 k)) k * P5 (ix2 k e) := by
    refine (matmul_at _ _ r e).trans ?_
    refine Finset.sum_congr rfl fun k _ => ?_
    show k0_pay10 (F := Ideal) P0 P1 (ix2 r k) * shapeCast S2048x6144 P5 shapeCasts_S2048x6144_S2048x6144 (ix2 k e) = _
    rw [Cert.KernelIdeal.BlockRow.xn_eq, shapeCast_self]
  have eb : broadcastTo S128x6144 (shapeCast S1x6144 P4 shapeCasts_S1x6144_S1x6144) broadcasts_S1x6144_S128x6144 (ix2 r e) = P4 (ix2 0 e) := by
    refine (broadcastTo_apply _ _ (ix2 r e) (ix2 (0 : Fin 1) e) (fun a => match a with
      | ⟨0, _⟩ => by show 0 = (if (1 : Nat) = 1 then 0 else r.val); rw [if_pos rfl]
      | ⟨1, _⟩ => by show e.val = (if (6144 : Nat) = 1 then 0 else e.val); rw [if_neg (by decide)])).trans ?_
    rw [shapeCast_self]
  exact congrArg₂ (· + ·) em eb

end Cert.KernelIdeal.BlockCtrl

end
-- ==== Proof.BlockVal.lean ====
/-
  One block of the kernel's two results, cell by cell.

  The body's result for a 128-row block, read off the loads index by index, is at block index `(0, r, d)` the cell
  function of row `r` of the x and v blocks, of the one-row blocks of the weight, scale, shift, `μ` and bias, and
  of the matrix block read transposed: every load is read at the coordinates the block index gives it, the row's
  sum of squares is the lane reduction at row `r`, and the three gate arguments are the 128 × 6144 product-plus-bias
  at `(r, d)`, `(r, 2048 + d)` and `(r, 4096 + d)`.
-/
import proofs.«102488_j39926015984295_2_alg».proof.Proof.BlockCtrl

noncomputable section

namespace Cert.KernelIdeal.BlockVal

open Cert.KernelIdeal Cert.KernelIdeal.Gen Idealize.ShloMosaic Idealize.ShloMosaic.ValueIdx

/-- A block index is `(0, r, d)`. -/
theorem idx_split (y : S1x128x2048.Idx) : ∃ (r : Fin 128) (d : Fin 2048), y = ix3 (0 : Fin 1) r d :=
  ⟨y 1, y 2, funext fun a => match a with
    | ⟨0, _⟩ => Fin.ext (by have h : (y 0).val < 1 := (y 0).isLt; show (y 0).val = 0; omega)
    | ⟨1, _⟩ => rfl
    | ⟨2, _⟩ => rfl⟩

/-- The first result's block at `(0, r, d)`. -/
theorem E8_eq (P0 : Vec Ideal S1x128x2048 .f32) (P1 : Vec Ideal S1x2048 .f32) (P2 : Vec Ideal S1x1x2048 .f32)
    (P3 : Vec Ideal S1x1x2048 .f32) (P4 : Vec Ideal S1x6144 .f32) (P5 : Vec Ideal S2048x6144 .bf16)
    (P6 : Vec Ideal S1x128x2048 .f32) (P7 : Vec Ideal S1x2048 .f32) (y : S1x128x2048.Idx) :
    Cert.KernelIdeal.Value.E8 (F := Ideal) P0 P1 P2 P3 P4 P5 P6 P7 y
      = Cert.Spec.cellOut (fun k => P0 (ix3 0 (y 1) k)) (fun k => P6 (ix3 0 (y 1) k)) (fun k => P1 (ix2 0 k))
          (fun k => P2 (ix3 0 0 k)) (fun k => P3 (ix3 0 0 k)) (fun k => P7 (ix2 0 k))
          (fun e k => P5 (ix2 k e)) (fun e => P4 (ix2 0 e)) (y 2) := by
  obtain ⟨r, d, rfl⟩ := idx_split y
  have i0 : Cert.KernelIdeal.Value.ix8_0 (ix3 (0 : Fin 1) r d) = ix3 0 r d := funext fun a => match a with | ⟨0, _⟩ => rfl | ⟨1, _⟩ => rfl | ⟨2, _⟩ => rfl
  have i1 : Cert.KernelIdeal.Value.ix8_1 (ix3 (0 : Fin 1) r d) = ix3 0 r d := funext fun a => match a with | ⟨0, _⟩ => rfl | ⟨1, _⟩ => rfl | ⟨2, _⟩ => rfl
  have i2 : Cert.KernelIdeal.Value.ix8_2 (ix3 (0 : Fin 1) r d) = ix1 r := funext fun a => match a with | ⟨0, _⟩ => rfl
  have i3 : Cert.KernelIdeal.Value.ix8_3 (ix3 (0 : Fin 1) r d) = ix2 0 d := funext fun a => match a with | ⟨0, _⟩ => rfl | ⟨1, _⟩ => rfl
  have i4 : Cert.KernelIdeal.Value.ix8_4 (ix3 (0 : Fin 1) r d) = ix3 0 0 d := funext fun a => match a with | ⟨0, _⟩ => rfl | ⟨1, _⟩ => rfl | ⟨2, _⟩ => rfl
  have i5 : Cert.KernelIdeal.Value.ix8_5 (ix3 (0 : Fin 1) r d) = ix3 0 0 d := funext fun a => match a with | ⟨0, _⟩ => rfl | ⟨1, _⟩ => rfl | ⟨2, _⟩ => rfl
  have i6 : Cert.KernelIdeal.Value.ix8_6 (ix3 (0 : Fin 1) r d) = ix2 r (Cert.Spec.third2 d) := funext fun a => match a with | ⟨0, _⟩ => rfl | ⟨1, _⟩ => rfl
  have i7 : Cert.KernelIdeal.Value.ix8_7 (ix3 (0 : Fin 1) r d) = ix2 r (Cert.Spec.third0 d) := funext fun a => match a with | ⟨0, _⟩ => rfl | ⟨1, _⟩ => rfl
  have i8 : Cert.KernelIdeal.Value.ix8_8 (ix3 (0 : Fin 1) r d) = ix3 0 r d := funext fun a => match a with | ⟨0, _⟩ => rfl | ⟨1, _⟩ => rfl | ⟨2, _⟩ => rfl
  have i9 : Cert.KernelIdeal.Value.ix8_9 (ix3 (0 : Fin 1) r d) = ix2 r (Cert.Spec.third1 d) := funext fun a => match a with | ⟨0, _⟩ => rfl | ⟨1, _⟩ => rfl
  have i10 : Cert.KernelIdeal.Value.ix8_10 (ix3 (0 : Fin 1) r d) = ix2 r (Cert.Spec.third1 d) := funext fun a => match a with | ⟨0, _⟩ => rfl | ⟨1, _⟩ => rfl
  have i11 : Cert.KernelIdeal.Value.ix8_11 (ix3 (0 : Fin 1) r d) = ix2 r (Cert.Spec.third1 d) := funext fun a => match a with | ⟨0, _⟩ => rfl | ⟨1, _⟩ => rfl
  have i12 : Cert.KernelIdeal.Value.ix8_12 (ix3 (0 : Fin 1) r d) = ix2 r (Cert.Spec.third1 d) := funext fun a => match a with | ⟨0, _⟩ => rfl | ⟨1, _⟩ => rfl
  have i13 : Cert.KernelIdeal.Value.ix8_13 (ix3 (0 : Fin 1) r d) = ix2 r (Cert.Spec.third1 d) := funext fun a => match a with | ⟨0, _⟩ => rfl | ⟨1, _⟩ => rfl
  have i14 : Cert.KernelIdeal.Value.ix8_14 (ix3 (0 : Fin 1) r d) = ix3 0 r d := funext fun a => match a with | ⟨0, _⟩ => rfl | ⟨1, _⟩ => rfl | ⟨2, _⟩ => rfl
  have i15 : Cert.KernelIdeal.Value.ix8_15 (ix3 (0 : Fin 1) r d) = ix1 r := funext fun a => match a with | ⟨0, _⟩ => rfl
  have i16 : Cert.KernelIdeal.Value.ix8_16 (ix3 (0 : Fin 1) r d) = ix2 0 d := funext fun a => match a with | ⟨0, _⟩ => rfl | ⟨1, _⟩ => rfl
  have i17 : Cert.KernelIdeal.Value.ix8_17 (ix3 (0 : Fin 1) r d) = ix3 0 0 d := funext fun a => match a with | ⟨0, _⟩ => rfl | ⟨1, _⟩ => rfl | ⟨2, _⟩ => rfl
  have i18 : Cert.KernelIdeal.Value.ix8_18 (ix3 (0 : Fin 1) r d) = ix3 0 0 d := funext fun a => match a with | ⟨0, _⟩ => rfl | ⟨1, _⟩ => rfl | ⟨2, _⟩ => rfl
  have i19 : Cert.KernelIdeal.Value.ix8_19 (ix3 (0 : Fin 1) r d) = ix2 0 d := funext fun a => match a with | ⟨0, _⟩ => rfl | ⟨1, _⟩ => rfl
  have hs := Cert.KernelIdeal.BlockRow.ssq_eq P0 r
  have hc0 := Cert.KernelIdeal.BlockCtrl.ctrl_eq P0 P1 P4 P5 r (Cert.Spec.third0 d)
  have hc1 := Cert.KernelIdeal.BlockCtrl.ctrl_eq P0 P1 P4 P5 r (Cert.Spec.third1 d)
  have hc2 := Cert.KernelIdeal.BlockCtrl.ctrl_eq P0 P1 P4 P5 r (Cert.Spec.third2 d)
  show Cert.KernelIdeal.Value.E8 (F := Ideal) P0 P1 P2 P3 P4 P5 P6 P7 (ix3 (0 : Fin 1) r d)
      = Cert.Spec.cellOut (fun k => P0 (ix3 0 r k)) (fun k => P6 (ix3 0 r k)) (fun k => P1 (ix2 0 k))
          (fun k => P2 (ix3 0 0 k)) (fun k => P3 (ix3 0 0 k)) (fun k => P7 (ix2 0 k))
          (fun e k => P5 (ix2 k e)) (fun e => P4 (ix2 0 e)) d
  unfold Cert.KernelIdeal.Value.E8
  rw [i0, i1, i2, i3, i4, i5, i6, i7, i8, i9, i10, i11, i12, i13, i14, i15, i16, i17, i18, i19, hs, hc0, hc1, hc2]
  rfl

/-- The second result's block at `(0, r, d)`. -/
theorem E9_eq (P0 : Vec Ideal S1x128x2048 .f32) (P1 : Vec Ideal S1x2048 .f32) (P2 : Vec Ideal S1x6144 .f32)
    (P3 : Vec Ideal S2048x6144 .bf16) (P4 : Vec Ideal S1x128x2048 .f32) (P5 : Vec Ideal S1x1x2048 .f32)
    (P6 : Vec Ideal S1x1x2048 .f32) (P7 : Vec Ideal S1x2048 .f32) (y : S1x128x2048.Idx) :
    Cert.KernelIdeal.Value.E9 (F := Ideal) P0 P1 P2 P3 P4 P5 P6 P7 y
      = Cert.Spec.cellVnext (fun k => P0 (ix3 0 (y 1) k)) (fun k => P4 (ix3 0 (y 1) k)) (fun k => P1 (ix2 0 k))
          (fun k => P5 (ix3 0 0 k)) (fun k => P6 (ix3 0 0 k)) (fun k => P7 (ix2 0 k))
          (fun e k => P3 (ix2 k e)) (fun e => P2 (ix2 0 e)) (y 2) := by
  obtain ⟨r, d, rfl⟩ := idx_split y
  have i0 : Cert.KernelIdeal.Value.ix9_0 (ix3 (0 : Fin 1) r d) = ix2 r (Cert.Spec.third0 d) := funext fun a => match a with | ⟨0, _⟩ => rfl | ⟨1, _⟩ => rfl
  have i1 : Cert.KernelIdeal.Value.ix9_1 (ix3 (0 : Fin 1) r d) = ix3 0 r d := funext fun a => match a with | ⟨0, _⟩ => rfl | ⟨1, _⟩ => rfl | ⟨2, _⟩ => rfl
  have i2 : Cert.KernelIdeal.Value.ix9_2 (ix3 (0 : Fin 1) r d) = ix2 r (Cert.Spec.third1 d) := funext fun a => match a with | ⟨0, _⟩ => rfl | ⟨1, _⟩ => rfl
  have i3 : Cert.KernelIdeal.Value.ix9_3 (ix3 (0 : Fin 1) r d) = ix2 r (Cert.Spec.third1 d) := funext fun a => match a with | ⟨0, _⟩ => rfl | ⟨1, _⟩ => rfl
  have i4 : Cert.KernelIdeal.Value.ix9_4 (ix3 (0 : Fin 1) r d) = ix2 r (Cert.Spec.third1 d) := funext fun a => match a with | ⟨0, _⟩ => rfl | ⟨1, _⟩ => rfl
  have i5 : Cert.KernelIdeal.Value.ix9_5 (ix3 (0 : Fin 1) r d) = ix2 r (Cert.Spec.third1 d) := funext fun a => match a with | ⟨0, _⟩ => rfl | ⟨1, _⟩ => rfl
  have i6 : Cert.KernelIdeal.Value.ix9_6 (ix3 (0 : Fin 1) r d) = ix2 r (Cert.Spec.third1 d) := funext fun a => match a with | ⟨0, _⟩ => rfl | ⟨1, _⟩ => rfl
  have i7 : Cert.KernelIdeal.Value.ix9_7 (ix3 (0 : Fin 1) r d) = ix3 0 r d := funext fun a => match a with | ⟨0, _⟩ => rfl | ⟨1, _⟩ => rfl | ⟨2, _⟩ => rfl
  have i8 : Cert.KernelIdeal.Value.ix9_8 (ix3 (0 : Fin 1) r d) = ix1 r := funext fun a => match a with | ⟨0, _⟩ => rfl
  have i9 : Cert.KernelIdeal.Value.ix9_9 (ix3 (0 : Fin 1) r d) = ix2 0 d := funext fun a => match a with | ⟨0, _⟩ => rfl | ⟨1, _⟩ => rfl
  have i10 : Cert.KernelIdeal.Value.ix9_10 (ix3 (0 : Fin 1) r d) = ix3 0 0 d := funext fun a => match a with | ⟨0, _⟩ => rfl | ⟨1, _⟩ => rfl | ⟨2, _⟩ => rfl
  have i11 : Cert.KernelIdeal.Value.ix9_11 (ix3 (0 : Fin 1) r d) = ix3 0 0 d := funext fun a => match a with | ⟨0, _⟩ => rfl | ⟨1, _⟩ => rfl | ⟨2, _⟩ => rfl
  have i12 : Cert.KernelIdeal.Value.ix9_12 (ix3 (0 : Fin 1) r d) = ix2 0 d := funext fun a => match a with | ⟨0, _⟩ => rfl | ⟨1, _⟩ => rfl
  have hs := Cert.KernelIdeal.BlockRow.ssq_eq P0 r
  have hc0 := Cert.KernelIdeal.BlockCtrl.ctrl_eq P0 P1 P2 P3 r (Cert.Spec.third0 d)
  have hc1 := Cert.KernelIdeal.BlockCtrl.ctrl_eq P0 P1 P2 P3 r (Cert.Spec.third1 d)
  show Cert.KernelIdeal.Value.E9 (F := Ideal) P0 P1 P2 P3 P4 P5 P6 P7 (ix3 (0 : Fin 1) r d)
      = Cert.Spec.cellVnext (fun k => P0 (ix3 0 r k)) (fun k => P4 (ix3 0 r k)) (fun k => P1 (ix2 0 k))
          (fun k => P5 (ix3 0 0 k)) (fun k => P6 (ix3 0 0 k)) (fun k => P7 (ix2 0 k))
          (fun e k => P3 (ix2 k e)) (fun e => P2 (ix2 0 e)) d
  unfold Cert.KernelIdeal.Value.E9
  rw [i0, i1, i2, i3, i4, i5, i6, i7, i8, i9, i10, i11, i12, hs, hc0, hc1]
  rfl

end Cert.KernelIdeal.BlockVal

end
-- ==== Proof.HostWindows.lean ====
/-
  The arrays the region finds in its windows, as functions of the argument arrays.

  Before the region the program re-lays six arguments: the shift and the scale (4 × 2048) get a unit middle axis,
  the weight, μ and the bias get a unit leading axis, and the matrix (6144 × 2048) is transposed and its float
  format changed. Each re-laid array, read at an index, is the argument at the index with the same coordinates (the
  transposed matrix at the swapped pair); a change of float format is the identity on the extended reals.
-/
import proofs.«102488_j39926015984295_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.HostWindows

open Cert.KernelIdeal Cert.KernelIdeal.Gen Idealize.ShloMosaic Idealize.ShloMosaic.ValueIdx Idealize.ShloMosaic.TcCoe

variable (m : (ℓ : Loc nD τ sig) → Buf (Elt Ideal) ℓ)

/-! ## Each re-laid array as the operations' term of its argument -/

/-- The shift with a unit middle axis, as the region finds it. -/
theorem V_shift (c : Dev nD) :
    (V m c main_v0 : S4x1x2048.Idx → EReal)
      = shapeCast S4x1x2048 (m ((c : Thread nD τ).loc main_arg2) : S4x2048.Idx → EReal) shapeCasts_S4x2048_S4x1x2048 := by
  dsimp only [Gen.V, Gen.hostOps0]; after_results; rfl

/-- The scale with a unit middle axis. -/
theorem V_scale (c : Dev nD) :
    (V m c main_v1 : S4x1x2048.Idx → EReal)
      = shapeCast S4x1x2048 (m ((c : Thread nD τ).loc main_arg3) : S4x2048.Idx → EReal) shapeCasts_S4x2048_S4x1x2048 := by
  dsimp only [Gen.V, Gen.hostOps0]; after_results; rfl

/-- The weight with a unit leading axis. -/
theorem V_weight (c : Dev nD) :
    (V m c main_v2 : S1x2048.Idx → EReal)
      = shapeCast S1x2048 (m ((c : Thread nD τ).loc main_arg4) : S2048.Idx → EReal) shapeCasts_S2048_S1x2048 := by
  dsimp only [Gen.V, Gen.hostOps0]; after_results; rfl

/-- μ with a unit leading axis. -/
theorem V_mu (c : Dev nD) :
    (V m c main_v3 : S1x2048.Idx → EReal)
      = shapeCast S1x2048 (m ((c : Thread nD τ).loc main_arg5) : S2048.Idx → EReal) shapeCasts_S2048_S1x2048 := by
  dsimp only [Gen.V, Gen.hostOps0]; after_results; rfl

/-- The bias with a unit leading axis. -/
theorem V_bias (c : Dev nD) :
    (V m c main_v4 : S1x6144.Idx → EReal)
      = shapeCast S1x6144 (m ((c : Thread nD τ).loc main_arg7) : S6144.Idx → EReal) shapeCasts_S6144_S1x6144 := by
  dsimp only [Gen.V, Gen.hostOps0]; after_results; rfl

/-- The matrix transposed, its float format changed. -/
theorem V_matrix (c : Dev nD) :
    (V m c main_v6 : S2048x6144.Idx → EReal)
      = (truncf (F := Ideal) .bf16 (transpose S2048x6144 [1, 0] (m ((c : Thread nD τ).loc main_arg6) : FVec Ideal S6144x2048 .f32)
          transposes_S6144x2048_S2048x6144_1_0 : FVec Ideal S2048x6144 .f32) bitsLt_bf16_f32 : FVec Ideal S2048x6144 .bf16) := by
  dsimp only [Gen.V, Gen.hostOps0]; after_results

/-! ## Read at an index -/

/-- Entry `(b, 0, k)` of the re-laid shift is entry `(b, k)` of the shift. -/
theorem shift_at (c : Dev nD) (b : Fin 4) (k : Fin 2048) :
    (V m c main_v0 : S4x1x2048.Idx → EReal) (ix3 b 0 k)
      = (m ((c : Thread nD τ).loc main_arg2) : S4x2048.Idx → EReal) (ix2 b k) := by
  rw [V_shift]
  refine shapeCast_apply _ _ (ix3 b 0 k) (ix2 b k) ?_
  rw [Shape.rowMajor_val_two, Shape.rowMajor_val_three]
  show b.val * 2048 + k.val = (b.val * 1 + 0) * 2048 + k.val
  omega

/-- Entry `(b, 0, k)` of the re-laid scale is entry `(b, k)` of the scale. -/
theorem scale_at (c : Dev nD) (b : Fin 4) (k : Fin 2048) :
    (V m c main_v1 : S4x1x2048.Idx → EReal) (ix3 b 0 k)
      = (m ((c : Thread nD τ).loc main_arg3) : S4x2048.Idx → EReal) (ix2 b k) := by
  rw [V_scale]
  refine shapeCast_apply _ _ (ix3 b 0 k) (ix2 b k) ?_
  rw [Shape.rowMajor_val_two, Shape.rowMajor_val_three]
  show b.val * 2048 + k.val = (b.val * 1 + 0) * 2048 + k.val
  omega

/-- Entry `(0, k)` of the re-laid weight is entry `k` of the weight. -/
theorem weight_at (c : Dev nD) (k : Fin 2048) :
    (V m c main_v2 : S1x2048.Idx → EReal) (ix2 0 k)
      = (m ((c : Thread nD τ).loc main_arg4) : S2048.Idx → EReal) (ix1 k) := by
  rw [V_weight]
  refine shapeCast_apply _ _ (ix2 0 k) (ix1 k) ?_
  rw [Shape.rowMajor_val_one, Shape.rowMajor_val_two]
  show k.val = 0 * 2048 + k.val
  omega

/-- Entry `(0, k)` of the re-laid μ is entry `k` of μ. -/
theorem mu_at (c : Dev nD) (k : Fin 2048) :
    (V m c main_v3 : S1x2048.Idx → EReal) (ix2 0 k)
      = (m ((c : Thread nD τ).loc main_arg5) : S2048.Idx → EReal) (ix1 k) := by
  rw [V_mu]
  refine shapeCast_apply _ _ (ix2 0 k) (ix1 k) ?_
  rw [Shape.rowMajor_val_one, Shape.rowMajor_val_two]
  show k.val = 0 * 2048 + k.val
  omega

/-- Entry `(0, e)` of the re-laid bias is entry `e` of the bias. -/
theorem bias_at (c : Dev nD) (e : Fin 6144) :
    (V m c main_v4 : S1x6144.Idx → EReal) (ix2 0 e)
      = (m ((c : Thread nD τ).loc main_arg7) : S6144.Idx → EReal) (ix1 e) := by
  rw [V_bias]
  refine shapeCast_apply _ _ (ix2 0 e) (ix1 e) ?_
  rw [Shape.rowMajor_val_one, Shape.rowMajor_val_two]
  show e.val = 0 * 6144 + e.val
  omega

/-- Entry `(k, e)` of the transposed matrix is entry `(e, k)` of the matrix. -/
theorem matrix_at (c : Dev nD) (k : Fin 2048) (e : Fin 6144) :
    (V m c main_v6 : S2048x6144.Idx → EReal) (ix2 k e)
      = (m ((c : Thread nD τ).loc main_arg6) : S6144x2048.Idx → EReal) (ix2 e k) := by
  rw [V_matrix]
  show (transpose S2048x6144 [1, 0] (m ((c : Thread nD τ).loc main_arg6) : FVec Ideal S6144x2048 .f32)
      transposes_S6144x2048_S2048x6144_1_0 : FVec Ideal S2048x6144 .f32) (ix2 k e) = _
  refine transpose_apply _ _ _ (ix2 k e) (ix2 e k) fun b => ?_
  match b with
  | ⟨0, _⟩ => rfl
  | ⟨1, _⟩ => rfl

end Cert.KernelIdeal.HostWindows

end
-- ==== Proof.Cover.lean ====
/-
  The 128 blocks the grid writes back tile each result array.

  The grid is 4 × 32; the point with block index `(b, j, 0)` writes rows `128 j … 128 j + 127` of batch `b`, all 2048
  columns. Every block index `(b, j, 0)` with `b < 4`, `j < 32` is some point's, so entry `(b, s, d)` of a result array
  lies in the block of the point with block index `(b, s / 128, 0)`.
-/
import proofs.«102488_j39926015984295_2_alg».proof.Proof.Gen.KernelIdeal.Frame

noncomputable section

namespace Cert.KernelIdeal.Cover

open Cert.KernelIdeal Cert.KernelIdeal.Gen Idealize.ShloMosaic Idealize.ShloMosaic.TcCoe

/-- Every block `(b, j, 0)` of the result array is some grid point's. -/
theorem idx_onto8 : ∀ (q0 : Fin 4) (q1 : Fin 32), ∃ t : Fin cfg0.N, win0_8.index t = ![q0.val, q1.val, 0] :=
  (by decide +kernel : ∀ (q0 : Fin 4) (q1 : Fin 32), ∃ t : Fin grid0.N, win0_8.index t = ![q0.val, q1.val, 0])

/-- An index of the result array is in point `t`'s block iff each coordinate is in the block's range on its axis. -/
theorem mem_blk8 (t : Fin cfg0.N) (i : S4x4096x2048.Idx) :
    i ∈ ((cfg0.win 8).blk t).view.set ↔ ∀ a : Fin 3, win0_8.index t a * S1x128x2048.size a ≤ (i a).val ∧ (i a).val < win0_8.index t a * S1x128x2048.size a + S1x128x2048.size a := by
  show i ∈ ((View.whole main_v7_0).slice (win0_8.rect t)).set ↔ _
  rw [View.set_slice_whole, Rect.mem_set_unit]
  exact Iff.rfl

/-- Entry `(b, s, d)` lies in the block of the point whose block index is `(b, s / 128, 0)`, and every point writes back:
    the blocks cover the whole result array. -/
theorem covered8 (i : S4x4096x2048.Idx) :
    ∃ t : Fin cfg0.N, (cfg0.win 8).flush t = true ∧ i ∈ ((cfg0.win 8).blk t).view.set := by
  have hi0 : (i 0).val < 4 := (i 0).isLt
  have hi1 : (i 1).val < 4096 := (i 1).isLt
  have hi2 : (i 2).val < 2048 := (i 2).isLt
  obtain ⟨t, ht⟩ := idx_onto8 ⟨(i 0).val, by omega⟩ ⟨(i 1).val / 128, by omega⟩
  have q0 : win0_8.index t (0 : Fin 3) = (i 0).val := congrFun ht 0
  have q1 : win0_8.index t (1 : Fin 3) = (i 1).val / 128 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 128 ≤ (i 1).val ∧ (i 1).val < win0_8.index t (1 : Fin 3) * 128 + 128; omega
  | ⟨2, _⟩ => show win0_8.index t (2 : Fin 3) * 2048 ≤ (i 2).val ∧ (i 2).val < win0_8.index t (2 : Fin 3) * 2048 + 2048; omega

/-- Every block `(b, j, 0)` of the result array is some grid point's. -/
theorem idx_onto9 : ∀ (q0 : Fin 4) (q1 : Fin 32), ∃ t : Fin cfg0.N, win0_9.index t = ![q0.val, q1.val, 0] :=
  (by decide +kernel : ∀ (q0 : Fin 4) (q1 : Fin 32), ∃ t : Fin grid0.N, win0_9.index t = ![q0.val, q1.val, 0])

/-- An index of the result array is in point `t`'s block iff each coordinate is in the block's range on its axis. -/
theorem mem_blk9 (t : Fin cfg0.N) (i : S4x4096x2048.Idx) :
    i ∈ ((cfg0.win 9).blk t).view.set ↔ ∀ a : Fin 3, win0_9.index t a * S1x128x2048.size a ≤ (i a).val ∧ (i a).val < win0_9.index t a * S1x128x2048.size a + S1x128x2048.size a := by
  show i ∈ ((View.whole main_v7_1).slice (win0_9.rect t)).set ↔ _
  rw [View.set_slice_whole, Rect.mem_set_unit]
  exact Iff.rfl

/-- Entry `(b, s, d)` lies in the block of the point whose block index is `(b, s / 128, 0)`, and every point writes back:
    the blocks cover the whole result array. -/
theorem covered9 (i : S4x4096x2048.Idx) :
    ∃ t : Fin cfg0.N, (cfg0.win 9).flush t = true ∧ i ∈ ((cfg0.win 9).blk t).view.set := by
  have hi0 : (i 0).val < 4 := (i 0).isLt
  have hi1 : (i 1).val < 4096 := (i 1).isLt
  have hi2 : (i 2).val < 2048 := (i 2).isLt
  obtain ⟨t, ht⟩ := idx_onto9 ⟨(i 0).val, by omega⟩ ⟨(i 1).val / 128, by omega⟩
  have q0 : win0_9.index t (0 : Fin 3) = (i 0).val := congrFun ht 0
  have q1 : win0_9.index t (1 : Fin 3) = (i 1).val / 128 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 128 ≤ (i 1).val ∧ (i 1).val < win0_9.index t (1 : Fin 3) * 128 + 128; omega
  | ⟨2, _⟩ => show win0_9.index t (2 : Fin 3) * 2048 ≤ (i 2).val ∧ (i 2).val < win0_9.index t (2 : Fin 3) * 2048 + 2048; omega

end Cert.KernelIdeal.Cover

end
-- ==== Proof.KernelArrays.lean ====
/-
  From the kernel's blocks to its two result arrays.

  The grid has 4 × 32 points; point (b, s) reads rows 128·s … 128·s + 127 of batch b of x and of v, row b of the
  shift and of the scale, and the whole weight, μ, matrix and bias, and writes rows 128·s … 128·s + 127 of batch b
  of both results. The block a point writes back is therefore the restriction to those rows of the two cell
  functions of the argument arrays, and the 128 blocks tile the two arrays.
-/
import proofs.«102488_j39926015984295_2_alg».proof.Proof.Gen.KernelIdeal.Value
import proofs.«102488_j39926015984295_2_alg».proof.Proof.Spec
import proofs.«102488_j39926015984295_2_alg».proof.Proof.BlockVal
import proofs.«102488_j39926015984295_2_alg».proof.Proof.HostWindows
import proofs.«102488_j39926015984295_2_alg».proof.Proof.Cover
import Idealize.ShloMosaic.Lib.ValueIdx
import Idealize.ShloMosaic.Lib.Pipeline.Value

noncomputable section

namespace Cert.KernelIdeal.Arrays

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## The printed index maps, decided over the 128 grid points -/

/-- The result blocks' indices stay in their ranges: batch ≤ 3, row block ≤ 31, column block 0. -/
theorem idx_out : ∀ t : Fin cfg0.N, win0_8.index t (0 : Fin 3) ≤ 3 ∧ win0_8.index t (1 : Fin 3) ≤ 31 ∧ win0_8.index t (2 : Fin 3) = 0 :=
  (by decide +kernel : ∀ t : Fin grid0.N, _)

/-- The second result's blocks move with the first's. -/
theorem idx_vnext : ∀ t : Fin cfg0.N, win0_9.index t (0 : Fin 3) = win0_8.index t (0 : Fin 3)
    ∧ win0_9.index t (1 : Fin 3) = win0_8.index t (1 : Fin 3) ∧ win0_9.index t (2 : Fin 3) = 0 :=
  (by decide +kernel : ∀ t : Fin grid0.N, _)

/-- The blocks of x and of v move with the result's. -/
theorem idx_rows : ∀ t : Fin cfg0.N, win0_0.index t (0 : Fin 3) = win0_8.index t (0 : Fin 3)
    ∧ win0_0.index t (1 : Fin 3) = win0_8.index t (1 : Fin 3) ∧ win0_0.index t (2 : Fin 3) = 0
    ∧ win0_1.index t (0 : Fin 3) = win0_8.index t (0 : Fin 3)
    ∧ win0_1.index t (1 : Fin 3) = win0_8.index t (1 : Fin 3) ∧ win0_1.index t (2 : Fin 3) = 0 :=
  (by decide +kernel : ∀ t : Fin grid0.N, _)

/-- The one-row blocks of the shift and of the scale are the result's batch. -/
theorem idx_batch : ∀ t : Fin cfg0.N, win0_2.index t (0 : Fin 3) = win0_8.index t (0 : Fin 3)
    ∧ win0_2.index t (1 : Fin 3) = 0 ∧ win0_2.index t (2 : Fin 3) = 0
    ∧ win0_3.index t (0 : Fin 3) = win0_8.index t (0 : Fin 3)
    ∧ win0_3.index t (1 : Fin 3) = 0 ∧ win0_3.index t (2 : Fin 3) = 0 :=
  (by decide +kernel : ∀ t : Fin grid0.N, _)

/-- The weight, μ, the matrix and the bias are read whole at every point. -/
theorem idx_whole : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## One block, cell by cell, when its input blocks are the stated rows of the arrays -/

/-- The first result's block at `(0, r, d)` is the cell function at `(b, s, d)` of the arrays whose rows the blocks are. -/
theorem out_of_rows (X Vv : Cert.Spec.Arr3) (Sh Sc : Cert.Spec.Arr2) (Nw Mu : Cert.Spec.Arr1) (W : Cert.Spec.ArrW) (B : Cert.Spec.ArrB)
    (P0 : Vec Ideal S1x128x2048 .f32) (P1 : Vec Ideal S1x2048 .f32) (P2 : Vec Ideal S1x1x2048 .f32)
    (P3 : Vec Ideal S1x1x2048 .f32) (P4 : Vec Ideal S1x6144 .f32) (P5 : Vec Ideal S2048x6144 .bf16)
    (P6 : Vec Ideal S1x128x2048 .f32) (P7 : Vec Ideal S1x2048 .f32) (y : S1x128x2048.Idx) (b : Fin 4) (s : Fin 4096)
    (h0 : ∀ k, P0 (ix3 0 (y 1) k) = X (ix3 b s k)) (h6 : ∀ k, P6 (ix3 0 (y 1) k) = Vv (ix3 b s k))
    (h1 : ∀ k, P1 (ix2 0 k) = Nw (ix1 k)) (h2 : ∀ k, P2 (ix3 0 0 k) = Sc (ix2 b k))
    (h3 : ∀ k, P3 (ix3 0 0 k) = Sh (ix2 b k)) (h7 : ∀ k, P7 (ix2 0 k) = Mu (ix1 k))
    (h5 : ∀ k e, P5 (ix2 k e) = W (ix2 e k)) (h4 : ∀ e, P4 (ix2 0 e) = B (ix1 e)) :
    Cert.KernelIdeal.Value.E8 (F := Ideal) P0 P1 P2 P3 P4 P5 P6 P7 y = Cert.Spec.gOut X Vv Sh Sc Nw Mu W B (ix3 b s (y 2)) := by
  refine (Cert.KernelIdeal.BlockVal.E8_eq P0 P1 P2 P3 P4 P5 P6 P7 y).trans ?_
  simp only [h0, h6, h1, h2, h3, h7, h5, h4]
  rfl

/-- The second result's block at `(0, r, d)`, likewise. -/
theorem vnext_of_rows (X Vv : Cert.Spec.Arr3) (Sh Sc : Cert.Spec.Arr2) (Nw Mu : Cert.Spec.Arr1) (W : Cert.Spec.ArrW) (B : Cert.Spec.ArrB)
    (P0 : Vec Ideal S1x128x2048 .f32) (P1 : Vec Ideal S1x2048 .f32) (P2 : Vec Ideal S1x6144 .f32)
    (P3 : Vec Ideal S2048x6144 .bf16) (P4 : Vec Ideal S1x128x2048 .f32) (P5 : Vec Ideal S1x1x2048 .f32)
    (P6 : Vec Ideal S1x1x2048 .f32) (P7 : Vec Ideal S1x2048 .f32) (y : S1x128x2048.Idx) (b : Fin 4) (s : Fin 4096)
    (h0 : ∀ k, P0 (ix3 0 (y 1) k) = X (ix3 b s k)) (h4 : ∀ k, P4 (ix3 0 (y 1) k) = Vv (ix3 b s k))
    (h1 : ∀ k, P1 (ix2 0 k) = Nw (ix1 k)) (h5 : ∀ k, P5 (ix3 0 0 k) = Sc (ix2 b k))
    (h6 : ∀ k, P6 (ix3 0 0 k) = Sh (ix2 b k)) (h7 : ∀ k, P7 (ix2 0 k) = Mu (ix1 k))
    (h3 : ∀ k e, P3 (ix2 k e) = W (ix2 e k)) (h2 : ∀ e, P2 (ix2 0 e) = B (ix1 e)) :
    Cert.KernelIdeal.Value.E9 (F := Ideal) P0 P1 P2 P3 P4 P5 P6 P7 y = Cert.Spec.gVnext X Vv Sh Sc Nw Mu W B (ix3 b s (y 2)) := by
  refine (Cert.KernelIdeal.BlockVal.E9_eq P0 P1 P2 P3 P4 P5 P6 P7 y).trans ?_
  simp only [h0, h4, h1, h5, h6, h7, h3, h2]
  rfl

/-! ## Each input block at a point, as rows of its argument -/

/-- Row `r` of the x block at point `t` is row `128·(row block) + r` of the point's batch of x. -/
theorem x_rows (c : Dev nD) (t : Fin cfg0.N) (r : Fin 128) (k : Fin 2048) (b : Fin 4) (s : Fin 4096)
    (hb : b.val = win0_8.index t (0 : Fin 3)) (hs : s.val = win0_8.index t (1 : Fin 3) * 128 + r.val) :
    (iblk m c 0 t : Vec Ideal S1x128x2048 .f32) (ix3 0 r k)
      = (m ((c : Thread nD τ).loc main_arg0) : Cert.Spec.Arr3) (ix3 b s k) := by
  obtain ⟨e0, e1, e2, -, -, -⟩ := idx_rows t
  have h : ((cfg0.win 0).blk t).view.emb (ix3 0 r k : S1x128x2048.Idx) = (ix3 b s k : S4x4096x2048.Idx) := by
    funext a; apply Fin.ext
    match a with
    | ⟨0, _⟩ => show win0_0.index t (0 : Fin 3) * 1 + 1 * 0 = b.val; omega
    | ⟨1, _⟩ => show win0_0.index t (1 : Fin 3) * 128 + 1 * r.val = s.val; omega
    | ⟨2, _⟩ => show win0_0.index t (2 : Fin 3) * 2048 + 1 * k.val = k.val; omega
  show V m c main_arg0 (((cfg0.win 0).blk t).view.emb (ix3 0 r k : S1x128x2048.Idx)) = _
  rw [h, V_main_arg0]

/-- Row `r` of the v block, likewise. -/
theorem v_rows (c : Dev nD) (t : Fin cfg0.N) (r : Fin 128) (k : Fin 2048) (b : Fin 4) (s : Fin 4096)
    (hb : b.val = win0_8.index t (0 : Fin 3)) (hs : s.val = win0_8.index t (1 : Fin 3) * 128 + r.val) :
    (iblk m c 1 t : Vec Ideal S1x128x2048 .f32) (ix3 0 r k)
      = (m ((c : Thread nD τ).loc main_arg1) : Cert.Spec.Arr3) (ix3 b s k) := by
  obtain ⟨-, -, -, e0, e1, e2⟩ := idx_rows t
  have h : ((cfg0.win 1).blk t).view.emb (ix3 0 r k : S1x128x2048.Idx) = (ix3 b s k : S4x4096x2048.Idx) := by
    funext a; apply Fin.ext
    match a with
    | ⟨0, _⟩ => show win0_1.index t (0 : Fin 3) * 1 + 1 * 0 = b.val; omega
    | ⟨1, _⟩ => show win0_1.index t (1 : Fin 3) * 128 + 1 * r.val = s.val; omega
    | ⟨2, _⟩ => show win0_1.index t (2 : Fin 3) * 2048 + 1 * k.val = k.val; omega
  show V m c main_arg1 (((cfg0.win 1).blk t).view.emb (ix3 0 r k : S1x128x2048.Idx)) = _
  rw [h, V_main_arg1]

/-- The one-row shift block at point `t` is the point's batch row of the shift. -/
theorem shift_row (c : Dev nD) (t : Fin cfg0.N) (k : Fin 2048) (b : Fin 4) (hb : b.val = win0_8.index t (0 : Fin 3)) :
    (iblk m c 2 t : Vec Ideal S1x1x2048 .f32) (ix3 0 0 k)
      = (m ((c : Thread nD τ).loc main_arg2) : Cert.Spec.Arr2) (ix2 b k) := by
  obtain ⟨e0, e1, e2, -, -, -⟩ := idx_batch t
  have h : ((cfg0.win 2).blk t).view.emb (ix3 0 0 k : S1x1x2048.Idx) = (ix3 b 0 k : S4x1x2048.Idx) := by
    funext a; apply Fin.ext
    match a with
    | ⟨0, _⟩ => show win0_2.index t (0 : Fin 3) * 1 + 1 * 0 = b.val; omega
    | ⟨1, _⟩ => show win0_2.index t (1 : Fin 3) * 1 + 1 * 0 = 0; omega
    | ⟨2, _⟩ => show win0_2.index t (2 : Fin 3) * 2048 + 1 * k.val = k.val; omega
  show V m c main_v0 (((cfg0.win 2).blk t).view.emb (ix3 0 0 k : S1x1x2048.Idx)) = _
  rw [h]
  exact HostWindows.shift_at m c b k

/-- The one-row scale block, likewise. -/
theorem scale_row (c : Dev nD) (t : Fin cfg0.N) (k : Fin 2048) (b : Fin 4) (hb : b.val = win0_8.index t (0 : Fin 3)) :
    (iblk m c 3 t : Vec Ideal S1x1x2048 .f32) (ix3 0 0 k)
      = (m ((c : Thread nD τ).loc main_arg3) : Cert.Spec.Arr2) (ix2 b k) := by
  obtain ⟨-, -, -, e0, e1, e2⟩ := idx_batch t
  have h : ((cfg0.win 3).blk t).view.emb (ix3 0 0 k : S1x1x2048.Idx) = (ix3 b 0 k : S4x1x2048.Idx) := by
    funext a; apply Fin.ext
    match a with
    | ⟨0, _⟩ => show win0_3.index t (0 : Fin 3) * 1 + 1 * 0 = b.val; omega
    | ⟨1, _⟩ => show win0_3.index t (1 : Fin 3) * 1 + 1 * 0 = 0; omega
    | ⟨2, _⟩ => show win0_3.index t (2 : Fin 3) * 2048 + 1 * k.val = k.val; omega
  show V m c main_v1 (((cfg0.win 3).blk t).view.emb (ix3 0 0 k : S1x1x2048.Idx)) = _
  rw [h]
  exact HostWindows.scale_at m c b k

/-- The weight block is the weight. -/
theorem weight_whole (c : Dev nD) (t : Fin cfg0.N) (k : Fin 2048) :
    (iblk m c 4 t : Vec Ideal S1x2048 .f32) (ix2 0 k) = (m ((c : Thread nD τ).loc main_arg4) : Cert.Spec.Arr1) (ix1 k) := by
  obtain ⟨e0, e1, -, -, -, -, -, -⟩ := idx_whole t
  have h : ((cfg0.win 4).blk t).view.emb (ix2 0 k : S1x2048.Idx) = (ix2 0 k : S1x2048.Idx) := by
    funext a; apply Fin.ext
    match a with
    | ⟨0, _⟩ => show win0_4.index t (0 : Fin 2) * 1 + 1 * 0 = 0; omega
    | ⟨1, _⟩ => show win0_4.index t (1 : Fin 2) * 2048 + 1 * k.val = k.val; omega
  show V m c main_v2 (((cfg0.win 4).blk t).view.emb (ix2 0 k : S1x2048.Idx)) = _
  rw [h]
  exact HostWindows.weight_at m c k

/-- The μ block is μ. -/
theorem mu_whole (c : Dev nD) (t : Fin cfg0.N) (k : Fin 2048) :
    (iblk m c 5 t : Vec Ideal S1x2048 .f32) (ix2 0 k) = (m ((c : Thread nD τ).loc main_arg5) : Cert.Spec.Arr1) (ix1 k) := by
  obtain ⟨-, -, e0, e1, -, -, -, -⟩ := idx_whole t
  have h : ((cfg0.win 5).blk t).view.emb (ix2 0 k : S1x2048.Idx) = (ix2 0 k : S1x2048.Idx) := by
    funext a; apply Fin.ext
    match a with
    | ⟨0, _⟩ => show win0_5.index t (0 : Fin 2) * 1 + 1 * 0 = 0; omega
    | ⟨1, _⟩ => show win0_5.index t (1 : Fin 2) * 2048 + 1 * k.val = k.val; omega
  show V m c main_v3 (((cfg0.win 5).blk t).view.emb (ix2 0 k : S1x2048.Idx)) = _
  rw [h]
  exact HostWindows.mu_at m c k

/-- The matrix block is the matrix, transposed. -/
theorem matrix_whole (c : Dev nD) (t : Fin cfg0.N) (k : Fin 2048) (e : Fin 6144) :
    (iblk m c 6 t : Vec Ideal S2048x6144 .bf16) (ix2 k e) = (m ((c : Thread nD τ).loc main_arg6) : Cert.Spec.ArrW) (ix2 e k) := by
  obtain ⟨-, -, -, -, e0, e1, -, -⟩ := idx_whole t
  have h : ((cfg0.win 6).blk t).view.emb (ix2 k e : S2048x6144.Idx) = (ix2 k e : S2048x6144.Idx) := by
    funext a; apply Fin.ext
    match a with
    | ⟨0, _⟩ => show win0_6.index t (0 : Fin 2) * 2048 + 1 * k.val = k.val; omega
    | ⟨1, _⟩ => show win0_6.index t (1 : Fin 2) * 6144 + 1 * e.val = e.val; omega
  show V m c main_v6 (((cfg0.win 6).blk t).view.emb (ix2 k e : S2048x6144.Idx)) = _
  rw [h]
  exact HostWindows.matrix_at m c k e

/-- The bias block is the bias. -/
theorem bias_whole (c : Dev nD) (t : Fin cfg0.N) (e : Fin 6144) :
    (iblk m c 7 t : Vec Ideal S1x6144 .f32) (ix2 0 e) = (m ((c : Thread nD τ).loc main_arg7) : Cert.Spec.ArrB) (ix1 e) := by
  obtain ⟨-, -, -, -, -, -, e0, e1⟩ := idx_whole t
  have h : ((cfg0.win 7).blk t).view.emb (ix2 0 e : S1x6144.Idx) = (ix2 0 e : S1x6144.Idx) := by
    funext a; apply Fin.ext
    match a with
    | ⟨0, _⟩ => show win0_7.index t (0 : Fin 2) * 1 + 1 * 0 = 0; omega
    | ⟨1, _⟩ => show win0_7.index t (1 : Fin 2) * 6144 + 1 * e.val = e.val; omega
  show V m c main_v4 (((cfg0.win 7).blk t).view.emb (ix2 0 e : S1x6144.Idx)) = _
  rw [h]
  exact HostWindows.bias_at m c e

/-! ## The first result -/

/-- Where entry `(0, r, d)` of the block point `t` writes sits in the array. -/
theorem emb8 (t : Fin cfg0.N) (y : S1x128x2048.Idx) (b : Fin 4) (s : Fin 4096)
    (hb : b.val = win0_8.index t (0 : Fin 3)) (hs : s.val = win0_8.index t (1 : Fin 3) * 128 + (y 1).val) :
    ((cfg0.win 8).blk t).view.emb y = (ix3 b s (y 2) : S4x4096x2048.Idx) := by
  obtain ⟨o0, o1, o2⟩ := idx_out t
  have hy0 : (y 0).val < 1 := (y 0).isLt
  funext a; apply Fin.ext
  match a with
  | ⟨0, _⟩ => show win0_8.index t (0 : Fin 3) * 1 + 1 * (y 0).val = b.val; omega
  | ⟨1, _⟩ => show win0_8.index t (1 : Fin 3) * 128 + 1 * (y 1).val = s.val; omega
  | ⟨2, _⟩ => show win0_8.index t (2 : Fin 3) * 2048 + 1 * (y 2).val = (y 2).val; omega

/-- The block point `t` computes is the restriction of the cell function of the argument arrays to the block's rows. -/
theorem block8_at (c : Dev nD) (t : Fin cfg0.N) (y : S1x128x2048.Idx) :
    Cert.KernelIdeal.Value.E8 (F := Ideal) (iblk m c 0 t) (iblk m c 4 t) (iblk m c 3 t) (iblk m c 2 t) (iblk m c 7 t) (iblk m c 6 t) (iblk m c 1 t) (iblk m c 5 t) y
      = (Cert.Spec.gOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (((cfg0.win 8).blk t).view.emb y) := by
  obtain ⟨o0, o1, o2⟩ := idx_out t
  have hy1 : (y 1).val < 128 := (y 1).isLt
  have hb : (⟨win0_8.index t (0 : Fin 3), by omega⟩ : Fin 4).val = win0_8.index t (0 : Fin 3) := rfl
  have hs : (⟨win0_8.index t (1 : Fin 3) * 128 + (y 1).val, by omega⟩ : Fin 4096).val = win0_8.index t (1 : Fin 3) * 128 + (y 1).val := rfl
  rw [emb8 t y _ _ hb hs]
  exact out_of_rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (iblk m c 0 t) (iblk m c 4 t) (iblk m c 3 t) (iblk m c 2 t) (iblk m c 7 t) (iblk m c 6 t) (iblk m c 1 t) (iblk m c 5 t) y _ _
    (fun k => x_rows m c t (y 1) k _ _ hb hs) (fun k => v_rows m c t (y 1) k _ _ hb hs)
    (fun k => weight_whole m c t k) (fun k => scale_row m c t k _ hb) (fun k => shift_row m c t k _ hb)
    (fun k => mu_whole m c t k) (fun k e => matrix_whole m c t k e) (fun e => bias_whole m c t e)

/-- WHAT POINT `t` WRITES BACK is block `t` of the cell function of the argument arrays. -/
theorem flushed8_eq (c : Dev nD) (t : Fin cfg0.N) :
    (dats m 0 c).flushed 8 t = ((cfg0.win 8).blk t).view.read (Elt Ideal) (Cert.Spec.gOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.KernelIdeal.Value.flushed8]
  unfold out0_8
  simp only [View.ld_unit_zero (S := S1x128x2048) zero3, View.ld_unit_zero (S := S1x1x2048) zero3, View.ld_unit_zero (S := S1x2048) zero2, View.ld_unit_zero (S := S1x6144) zero2, View.ld_unit_zero (S := S2048x6144) zero2]
  funext y
  exact (Cert.KernelIdeal.Value.canon8_eq (iblk m c 0 t) (iblk m c 4 t) (iblk m c 3 t) (iblk m c 2 t) (iblk m c 7 t) (iblk m c 6 t) (iblk m c 1 t) (iblk m c 5 t) y).trans (block8_at m c t y)

/-- THE ARRAY after the run is the cell function of the argument arrays. -/
theorem final8 (c : Dev nD) : (dats m 0 c).arrAt 8 cfg0.N = (Cert.Spec.gOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (dats m 0 c).arrAt_eq_of_cover 8 (Cert.Spec.gOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed8_eq m c t) Cert.KernelIdeal.Cover.covered8

/-! ## The second result -/

/-- Where entry `(0, r, d)` of the block point `t` writes sits in the array. -/
theorem emb9 (t : Fin cfg0.N) (y : S1x128x2048.Idx) (b : Fin 4) (s : Fin 4096)
    (hb : b.val = win0_8.index t (0 : Fin 3)) (hs : s.val = win0_8.index t (1 : Fin 3) * 128 + (y 1).val) :
    ((cfg0.win 9).blk t).view.emb y = (ix3 b s (y 2) : S4x4096x2048.Idx) := by
  obtain ⟨o0, o1, o2⟩ := idx_out t
  obtain ⟨v0, v1, v2⟩ := idx_vnext t
  have hy0 : (y 0).val < 1 := (y 0).isLt
  funext a; apply Fin.ext
  match a with
  | ⟨0, _⟩ => show win0_9.index t (0 : Fin 3) * 1 + 1 * (y 0).val = b.val; omega
  | ⟨1, _⟩ => show win0_9.index t (1 : Fin 3) * 128 + 1 * (y 1).val = s.val; omega
  | ⟨2, _⟩ => show win0_9.index t (2 : Fin 3) * 2048 + 1 * (y 2).val = (y 2).val; omega

/-- The block point `t` computes is the restriction of the cell function of the argument arrays to the block's rows. -/
theorem block9_at (c : Dev nD) (t : Fin cfg0.N) (y : S1x128x2048.Idx) :
    Cert.KernelIdeal.Value.E9 (F := Ideal) (iblk m c 0 t) (iblk m c 4 t) (iblk m c 7 t) (iblk m c 6 t) (iblk m c 1 t) (iblk m c 3 t) (iblk m c 2 t) (iblk m c 5 t) y
      = (Cert.Spec.gVnext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (((cfg0.win 9).blk t).view.emb y) := by
  obtain ⟨o0, o1, o2⟩ := idx_out t
  have hy1 : (y 1).val < 128 := (y 1).isLt
  have hb : (⟨win0_8.index t (0 : Fin 3), by omega⟩ : Fin 4).val = win0_8.index t (0 : Fin 3) := rfl
  have hs : (⟨win0_8.index t (1 : Fin 3) * 128 + (y 1).val, by omega⟩ : Fin 4096).val = win0_8.index t (1 : Fin 3) * 128 + (y 1).val := rfl
  rw [emb9 t y _ _ hb hs]
  exact vnext_of_rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (iblk m c 0 t) (iblk m c 4 t) (iblk m c 7 t) (iblk m c 6 t) (iblk m c 1 t) (iblk m c 3 t) (iblk m c 2 t) (iblk m c 5 t) y _ _
    (fun k => x_rows m c t (y 1) k _ _ hb hs) (fun k => v_rows m c t (y 1) k _ _ hb hs)
    (fun k => weight_whole m c t k) (fun k => scale_row m c t k _ hb) (fun k => shift_row m c t k _ hb)
    (fun k => mu_whole m c t k) (fun k e => matrix_whole m c t k e) (fun e => bias_whole m c t e)

/-- WHAT POINT `t` WRITES BACK is block `t` of the cell function of the argument arrays. -/
theorem flushed9_eq (c : Dev nD) (t : Fin cfg0.N) :
    (dats m 0 c).flushed 9 t = ((cfg0.win 9).blk t).view.read (Elt Ideal) (Cert.Spec.gVnext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.KernelIdeal.Value.flushed9]
  unfold out0_9
  simp only [View.ld_unit_zero (S := S1x128x2048) zero3, View.ld_unit_zero (S := S1x1x2048) zero3, View.ld_unit_zero (S := S1x2048) zero2, View.ld_unit_zero (S := S1x6144) zero2, View.ld_unit_zero (S := S2048x6144) zero2]
  funext y
  exact (Cert.KernelIdeal.Value.canon9_eq (iblk m c 0 t) (iblk m c 4 t) (iblk m c 7 t) (iblk m c 6 t) (iblk m c 1 t) (iblk m c 3 t) (iblk m c 2 t) (iblk m c 5 t) y).trans (block9_at m c t y)

/-- THE ARRAY after the run is the cell function of the argument arrays. -/
theorem final9 (c : Dev nD) : (dats m 0 c).arrAt 9 cfg0.N = (Cert.Spec.gVnext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (dats m 0 c).arrAt_eq_of_cover 9 (Cert.Spec.gVnext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed9_eq m c t) Cert.KernelIdeal.Cover.covered9

/-! ## The run, read -/

/-- Every weakly fair execution of the kernel terminates with both result arrays at the cell functions of the
    argument arrays, the arguments unchanged. -/
theorem run : θ_run (defs (F := Ideal)) (onTc (τ := τ) (main (F := Ideal))) ⟨m, fun _ => 0, ρ⟩ fun r => ∀ c : Dev nD,
      r.2.mem ((c : Thread nD τ).loc main_v7_0) = (Cert.Spec.gOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
      ∧ r.2.mem ((c : Thread nD τ).loc main_v7_1) = (Cert.Spec.gVnext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (Cert.KernelIdeal.Value.run_blocks m ρ)

end Cert.KernelIdeal.Arrays

end
-- ==== Proof.RefSpec.lean ====
/-
  The reference program computes the specification.

  The reference's stages are read one operation at a time from the generated reading of the program. Each
  stage at the index `(b, s, d)` is identified, bottom-up, with the corresponding function of the row `(b, s)` of
  `x` (and of `v`), of row `b` of `shift` and `scale`, and of the weight, `μ`, matrix and bias: the row's sum of
  squares, its reciprocal root mean square, the normalised weighted row, the controller's output, its three
  thirds, the two logistic gates, the softplus gate, the modulated entry, and the two results.

  The reference's term differs from the specification's in three places only: its sum of squares starts from the
  word of `0`; its logistic is spelled `1 / (1 + exp (−z))` with the word of `1`; and its softplus negates the absolute
  value where the specification subtracts it from the word of `0`.
-/
import proofs.«102488_j39926015984295_2_alg».proof.Proof.Gen.ReferenceIdeal.Read
import proofs.«102488_j39926015984295_2_alg».proof.Proof.Spec

noncomputable section

namespace Cert.ReferenceIdeal.RefSpec

open Cert.ReferenceIdeal Cert.ReferenceIdeal.Gen Cert.ReferenceIdeal.Read Idealize.ShloMosaic Idealize.ShloMosaic.ValueIdx

/-- The argument arrays' types, as the generated reading states them. -/
abbrev A3 := (⟨S4x4096x2048, .f32⟩ : BufTy).Contents (Elt Ideal)
abbrev A2 := (⟨S4x2048, .f32⟩ : BufTy).Contents (Elt Ideal)
abbrev A1 := (⟨S2048, .f32⟩ : BufTy).Contents (Elt Ideal)
abbrev AW := (⟨S6144x2048, .f32⟩ : BufTy).Contents (Elt Ideal)
abbrev AB := (⟨S6144, .f32⟩ : BufTy).Contents (Elt Ideal)

/-! ## The composed index functions at coordinates -/

theorem idx_v1 (b : Fin 4) (s : Fin 4096) (k : Fin 2048) : idx_main_v1 (ix2 b s) k = ix3 b s k :=
  funext fun a => Fin.ext (by match a with | ⟨0, _⟩ => rfl | ⟨1, _⟩ => rfl | ⟨2, _⟩ => rfl)

theorem idx_v2_v8 (b : Fin 4) (s : Fin 4096) (d : Fin 2048) : idx_main_v2 (idx_main_v8 (ix3 b s d)) = ix2 b s :=
  funext fun a => Fin.ext (by match a with | ⟨0, _⟩ => rfl | ⟨1, _⟩ => rfl)

theorem idx_v10_v11 (b : Fin 4) (s : Fin 4096) (d : Fin 2048) : idx_main_v10 (idx_main_v11 (ix3 b s d)) = ix1 d :=
  funext fun a => Fin.ext (by match a with | ⟨0, _⟩ => rfl)

theorem lidx_v13 (b : Fin 4) (s : Fin 4096) (e : Fin 6144) (k : Fin 2048) : lidx_main_v13 (ix3 b s e) k = ix3 b s k :=
  funext fun a => Fin.ext (by match a with | ⟨0, _⟩ => rfl | ⟨1, _⟩ => rfl | ⟨2, _⟩ => rfl)

theorem ridx_v13 (b : Fin 4) (s : Fin 4096) (e : Fin 6144) (k : Fin 2048) : ridx_main_v13 (ix3 b s e) k = ix2 e k :=
  funext fun a => Fin.ext (by match a with | ⟨0, _⟩ => rfl | ⟨1, _⟩ => rfl)

theorem idx_v14_v15 (b : Fin 4) (s : Fin 4096) (e : Fin 6144) : idx_main_v14 (idx_main_v15 (ix3 b s e)) = ix1 e :=
  funext fun a => Fin.ext (by match a with | ⟨0, _⟩ => rfl)

/-! ## The row's sum of squares, its reciprocal root mean square, and the normalised weighted row -/

/-- The row sum of squares: the reference's sum starts from the word of `0`. -/
theorem v1_at (x0 : A3) (b : Fin 4) (s : Fin 4096) :
    val_main_v1 (F := Ideal) x0 (ix2 b s) = Spec.rowSsq (fun k => x0 (ix3 b s k)) := by
  rw [val_main_v1_apply, val_main_cst_apply, Ideal.ofBits_def, Ideal.ofBits_zero_f32, zero_add]
  unfold Spec.rowSsq
  refine Finset.sum_congr rfl fun k _ => ?_
  rw [val_main_v0_apply, idx_v1, Ideal.mulf_def]

/-- The reciprocal root of the mean square plus the small constant, broadcast along the row. -/
theorem v8_at (x0 : A3) (b : Fin 4) (s : Fin 4096) (d : Fin 2048) :
    val_main_v8 (F := Ideal) x0 (ix3 b s d) = Spec.rowRms (fun k => x0 (ix3 b s k)) := by
  rw [val_main_v8_apply, val_main_v7_apply, val_main_v6_apply, val_main_v4_apply, val_main_v2_apply,
    val_main_v3_apply, val_main_cst_0_apply, val_main_v5_apply, val_main_cst_1_apply, idx_v2_v8, v1_at]
  rfl

/-- The normalised weighted row. -/
theorem v12_at (x0 : A3) (x4 : A1) (b : Fin 4) (s : Fin 4096) (d : Fin 2048) :
    val_main_v12 (F := Ideal) x0 x4 (ix3 b s d) = Spec.rowXn (fun k => x0 (ix3 b s k)) (fun k => x4 (ix1 k)) d := by
  rw [val_main_v12_apply, val_main_v9_apply, v8_at, val_main_v11_apply, val_main_v10_apply, idx_v10_v11]
  rfl

/-! ## The controller's output and its three thirds -/

/-- The controller's output at column `e`: the normalised row against row `e` of the matrix, plus the bias. -/
theorem v16_at (x0 : A3) (x4 : A1) (x6 : AW) (x7 : AB) (b : Fin 4) (s : Fin 4096) (e : Fin 6144) :
    val_main_v16 (F := Ideal) x0 x4 x6 x7 (ix3 b s e)
      = Spec.rowCtrl (fun k => x0 (ix3 b s k)) (fun k => x4 (ix1 k)) (fun e k => x6 (ix2 e k)) (fun e => x7 (ix1 e)) e := by
  rw [val_main_v16_apply, val_main_v13_apply, val_main_v15_apply, val_main_v14_apply, idx_v14_v15, Ideal.addf_def]
  unfold Spec.rowCtrl
  refine congrArg (· + x7 (ix1 e)) (Finset.sum_congr rfl fun k _ => ?_)
  rw [lidx_v13, ridx_v13, v12_at]

theorem idx_v17 (b : Fin 4) (s : Fin 4096) (d : Fin 2048) : idx_main_v17 (ix3 b s d) = ix3 b s (Spec.third0 d) :=
  funext fun a => Fin.ext (by match a with | ⟨0, _⟩ => rfl | ⟨1, _⟩ => rfl | ⟨2, _⟩ => rfl)

theorem idx_v18 (b : Fin 4) (s : Fin 4096) (d : Fin 2048) : idx_main_v18 (ix3 b s d) = ix3 b s (Spec.third1 d) :=
  funext fun a => Fin.ext (by match a with | ⟨0, _⟩ => rfl | ⟨1, _⟩ => rfl | ⟨2, _⟩ => exact Nat.add_comm 2048 d.val)

theorem idx_v19 (b : Fin 4) (s : Fin 4096) (d : Fin 2048) : idx_main_v19 (ix3 b s d) = ix3 b s (Spec.third2 d) :=
  funext fun a => Fin.ext (by match a with | ⟨0, _⟩ => rfl | ⟨1, _⟩ => rfl | ⟨2, _⟩ => exact Nat.add_comm 4096 d.val)

/-- The first third of the controller's output. -/
theorem v17_at (x0 : A3) (x4 : A1) (x6 : AW) (x7 : AB) (b : Fin 4) (s : Fin 4096) (d : Fin 2048) :
    val_main_v17 (F := Ideal) x0 x4 x6 x7 (ix3 b s d)
      = Spec.rowCtrl (fun k => x0 (ix3 b s k)) (fun k => x4 (ix1 k)) (fun e k => x6 (ix2 e k)) (fun e => x7 (ix1 e)) (Spec.third0 d) := by
  rw [val_main_v17_apply, idx_v17, v16_at]

/-- The second third. -/
theorem v18_at (x0 : A3) (x4 : A1) (x6 : AW) (x7 : AB) (b : Fin 4) (s : Fin 4096) (d : Fin 2048) :
    val_main_v18 (F := Ideal) x0 x4 x6 x7 (ix3 b s d)
      = Spec.rowCtrl (fun k => x0 (ix3 b s k)) (fun k => x4 (ix1 k)) (fun e k => x6 (ix2 e k)) (fun e => x7 (ix1 e)) (Spec.third1 d) := by
  rw [val_main_v18_apply, idx_v18, v16_at]

/-- The last third. -/
theorem v19_at (x0 : A3) (x4 : A1) (x6 : AW) (x7 : AB) (b : Fin 4) (s : Fin 4096) (d : Fin 2048) :
    val_main_v19 (F := Ideal) x0 x4 x6 x7 (ix3 b s d)
      = Spec.rowCtrl (fun k => x0 (ix3 b s k)) (fun k => x4 (ix1 k)) (fun e k => x6 (ix2 e k)) (fun e => x7 (ix1 e)) (Spec.third2 d) := by
  rw [val_main_v19_apply, idx_v19, v16_at]

/-! ## The three gates -/

/-- The reference's spelling of the logistic function, `1 / (1 + exp (−z))` with the word of `1`, is the logistic function. -/
theorem logistic_spelled (z : EReal) :
    Ideal.div (Ideal.ofBits .f32 0x3F800000#32) (Ideal.ofBits .f32 0x3F800000#32 + Ideal.exp (-z)) = Ideal.logistic z := by
  have h1 : Ideal.ofBits .f32 0x3F800000#32 = 1 := Spec.cOne_eq
  rw [h1]
  rfl

/-- The first logistic gate. -/
theorem v25_at (x0 : A3) (x4 : A1) (x6 : AW) (x7 : AB) (b : Fin 4) (s : Fin 4096) (d : Fin 2048) :
    val_main_v25 (F := Ideal) x0 x4 x6 x7 (ix3 b s d)
      = Ideal.logistic (Spec.rowCtrl (fun k => x0 (ix3 b s k)) (fun k => x4 (ix1 k)) (fun e k => x6 (ix2 e k)) (fun e => x7 (ix1 e)) (Spec.third0 d)) := by
  rw [val_main_v25_apply, val_main_v24_apply, val_main_cst_3_apply, val_main_v23_apply, val_main_v22_apply,
    val_main_cst_2_apply, val_main_v21_apply, val_main_v20_apply, v17_at]
  exact logistic_spelled _

/-- The second logistic gate. -/
theorem v32_at (x0 : A3) (x4 : A1) (x6 : AW) (x7 : AB) (b : Fin 4) (s : Fin 4096) (d : Fin 2048) :
    val_main_v32 (F := Ideal) x0 x4 x6 x7 (ix3 b s d)
      = Ideal.logistic (Spec.rowCtrl (fun k => x0 (ix3 b s k)) (fun k => x4 (ix1 k)) (fun e k => x6 (ix2 e k)) (fun e => x7 (ix1 e)) (Spec.third2 d)) := by
  rw [val_main_v32_apply, val_main_v31_apply, val_main_cst_5_apply, val_main_v30_apply, val_main_v29_apply,
    val_main_cst_4_apply, val_main_v28_apply, val_main_v27_apply, v19_at]
  exact logistic_spelled _

/-- The reference's spelling of softplus — the negated absolute value, the comparison read as "unordered or not equal" —
    is the specification's, which subtracts the absolute value from the word of `0` and compares as "ordered and not equal". -/
theorem softplus_spelled (z : EReal) :
    Scalar.select (Ideal.cmp .une (z - Spec.cZero) (z - Spec.cZero)) (z + Spec.cZero)
        (max z Spec.cZero + Ideal.log1p (Ideal.exp (-(max (z - Spec.cZero) (-(z - Spec.cZero))))))
      = Spec.softplus z := by
  unfold Spec.softplus
  have h0 : Spec.cZero - max (z - Spec.cZero) (-(z - Spec.cZero)) = -(max (z - Spec.cZero) (-(z - Spec.cZero))) := by
    rw [Spec.cZero_eq, zero_sub]
  rw [h0]
  rfl

/-- The softplus gate. -/
theorem v26_at (x0 : A3) (x4 : A1) (x6 : AW) (x7 : AB) (b : Fin 4) (s : Fin 4096) (d : Fin 2048) :
    val_main_v26 (F := Ideal) x0 x4 x6 x7 (ix3 b s d)
      = Spec.softplus (Spec.rowCtrl (fun k => x0 (ix3 b s k)) (fun k => x4 (ix1 k)) (fun e k => x6 (ix2 e k)) (fun e => x7 (ix1 e)) (Spec.third1 d)) := by
  rw [val_main_v26_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, v18_at]
  exact softplus_spelled _

/-! ## The modulated entry and the two results at a cell -/

theorem idx_v33_v36 (b : Fin 4) (s : Fin 4096) (d : Fin 2048) : idx_main_v33 (idx_main_v36 (ix3 b s d)) = ix2 b d :=
  funext fun a => Fin.ext (by match a with | ⟨0, _⟩ => rfl | ⟨1, _⟩ => rfl)

theorem idx_v38_v39 (b : Fin 4) (s : Fin 4096) (d : Fin 2048) : idx_main_v38 (idx_main_v39 (ix3 b s d)) = ix2 b d :=
  funext fun a => Fin.ext (by match a with | ⟨0, _⟩ => rfl | ⟨1, _⟩ => rfl)

theorem idx_v41_v42 (b : Fin 4) (s : Fin 4096) (d : Fin 2048) : idx_main_v41 (idx_main_v42 (ix3 b s d)) = ix1 d :=
  funext fun a => Fin.ext (by match a with | ⟨0, _⟩ => rfl)

/-- The modulated, shifted entry. -/
theorem v40_at (x0 : A3) (x2 x3 : A2) (x4 : A1) (b : Fin 4) (s : Fin 4096) (d : Fin 2048) :
    val_main_v40 (F := Ideal) x0 x2 x3 x4 (ix3 b s d)
      = Spec.cellAda (fun k => x0 (ix3 b s k)) (fun k => x4 (ix1 k)) (fun k => x3 (ix2 b k)) (fun k => x2 (ix2 b k)) d := by
  rw [val_main_v40_apply, val_main_v37_apply, v12_at, val_main_v36_apply, val_main_v35_apply, val_main_v34_apply,
    val_main_cst_6_apply, val_main_v33_apply, idx_v33_v36, val_main_v39_apply, val_main_v38_apply, idx_v38_v39]
  rfl

/-- The second result at a cell. -/
theorem v46_at (x0 x1 : A3) (x2 x3 : A2) (x4 x5 : A1) (x6 : AW) (x7 : AB) (b : Fin 4) (s : Fin 4096) (d : Fin 2048) :
    val_main_v46 (F := Ideal) x0 x1 x2 x3 x4 x5 x6 x7 (ix3 b s d)
      = Spec.cellVnext (fun k => x0 (ix3 b s k)) (fun k => x1 (ix3 b s k)) (fun k => x4 (ix1 k))
          (fun k => x3 (ix2 b k)) (fun k => x2 (ix2 b k)) (fun k => x5 (ix1 k))
          (fun e k => x6 (ix2 e k)) (fun e => x7 (ix1 e)) d := by
  rw [val_main_v46_apply, val_main_v44_apply, v25_at, val_main_v45_apply, v26_at, val_main_v43_apply, v40_at,
    val_main_v42_apply, val_main_v41_apply, idx_v41_v42]
  rfl

/-- The first result at a cell. -/
theorem v51_at (x0 x1 : A3) (x2 x3 : A2) (x4 x5 : A1) (x6 : AW) (x7 : AB) (b : Fin 4) (s : Fin 4096) (d : Fin 2048) :
    val_main_v51 (F := Ideal) x0 x1 x2 x3 x4 x5 x6 x7 (ix3 b s d)
      = Spec.cellOut (fun k => x0 (ix3 b s k)) (fun k => x1 (ix3 b s k)) (fun k => x4 (ix1 k))
          (fun k => x3 (ix2 b k)) (fun k => x2 (ix2 b k)) (fun k => x5 (ix1 k))
          (fun e k => x6 (ix2 e k)) (fun e => x7 (ix1 e)) d := by
  rw [val_main_v51_apply, val_main_v50_apply, v40_at, val_main_v49_apply, val_main_v48_apply, val_main_v47_apply,
    val_main_cst_7_apply, v32_at, v46_at]
  rfl

/-! ## The two result arrays -/

/-- The reference's first result is the specification's. -/
theorem out_eq (x0 x1 : (⟨S4x4096x2048, .f32⟩ : BufTy).Contents (Elt Ideal)) (x2 x3 : (⟨S4x2048, .f32⟩ : BufTy).Contents (Elt Ideal))
    (x4 x5 : (⟨S2048, .f32⟩ : BufTy).Contents (Elt Ideal)) (x6 : (⟨S6144x2048, .f32⟩ : BufTy).Contents (Elt Ideal))
    (x7 : (⟨S6144, .f32⟩ : BufTy).Contents (Elt Ideal)) :
    Cert.ReferenceIdeal.Read.val_main_v51 (F := Ideal) x0 x1 x2 x3 x4 x5 x6 x7 = Cert.Spec.gOut x0 x1 x2 x3 x4 x5 x6 x7 := by
  funext i
  obtain ⟨b, s, d, rfl⟩ : ∃ (b : Fin 4) (s : Fin 4096) (d : Fin 2048), i = ix3 b s d := ⟨i 0, i 1, i 2, eq_ix3 i⟩
  exact v51_at x0 x1 x2 x3 x4 x5 x6 x7 b s d

/-- The reference's second result is the specification's. -/
theorem vnext_eq (x0 x1 : (⟨S4x4096x2048, .f32⟩ : BufTy).Contents (Elt Ideal)) (x2 x3 : (⟨S4x2048, .f32⟩ : BufTy).Contents (Elt Ideal))
    (x4 x5 : (⟨S2048, .f32⟩ : BufTy).Contents (Elt Ideal)) (x6 : (⟨S6144x2048, .f32⟩ : BufTy).Contents (Elt Ideal))
    (x7 : (⟨S6144, .f32⟩ : BufTy).Contents (Elt Ideal)) :
    Cert.ReferenceIdeal.Read.val_main_v46 (F := Ideal) x0 x1 x2 x3 x4 x5 x6 x7 = Cert.Spec.gVnext x0 x1 x2 x3 x4 x5 x6 x7 := by
  funext i
  obtain ⟨b, s, d, rfl⟩ : ∃ (b : Fin 4) (s : Fin 4096) (d : Fin 2048), i = ix3 b s d := ⟨i 0, i 1, i 2, eq_ix3 i⟩
  exact v46_at x0 x1 x2 x3 x4 x5 x6 x7 b s d

end Cert.ReferenceIdeal.RefSpec

end
-- ==== Proof.lean ====
/-
  The certificate's five claims.

  Both programs compute, row by row, an RMS-normalised and weighted copy of x, multiply it into a 6144 × 2048 matrix
  and add a bias, and from the three thirds of that product form two logistic gates and one softplus gate that
  combine the modulated, shifted entry with v into the two results (Proof/Spec.lean states the function once).
  At the extended reals the kernel's rounding of the product's operands is the identity, its lane reduction and
  its matrix product are the plain sums, and its logistic is the reference's quotient `1 / (1 + e^(−z))`; the
  reference's softplus negates an absolute value where the kernel subtracts it from zero. No algebraic law that
  needs finiteness is used, so the precondition is never opened.

  The kernel's side: each 128-row block the body writes is the cell function of the block's rows
  (Proof/BlockRow.lean, Proof/BlockCtrl.lean, Proof/BlockVal.lean), the blocks of the arrays the host prepared are
  read back as the arguments (Proof/HostWindows.lean), and the 128 blocks cover both result arrays
  (Proof/KernelArrays.lean). The reference's side: its run, read one operation at a time, is the same function
  (Proof/RefSpec.lean). The ideal pass rewrote nothing, so the kernel's idealization claim is trivial, and the
  three frames are the generated ones.
-/
import proofs.«102488_j39926015984295_2_alg».proof.Defs
import proofs.«102488_j39926015984295_2_alg».proof.Proof.Gen.Kernel
import proofs.«102488_j39926015984295_2_alg».proof.Proof.Gen.Kernel.Skeleton
import proofs.«102488_j39926015984295_2_alg».proof.Proof.Gen.Kernel.Launch
import proofs.«102488_j39926015984295_2_alg».proof.Proof.Gen.Kernel.Points
import proofs.«102488_j39926015984295_2_alg».proof.Proof.Gen.Kernel.Frame
import proofs.«102488_j39926015984295_2_alg».proof.Proof.Gen.KernelIdeal
import proofs.«102488_j39926015984295_2_alg».proof.Proof.Gen.KernelIdeal.Skeleton
import proofs.«102488_j39926015984295_2_alg».proof.Proof.Gen.KernelIdeal.Launch
import proofs.«102488_j39926015984295_2_alg».proof.Proof.Gen.KernelIdeal.Points
import proofs.«102488_j39926015984295_2_alg».proof.Proof.Gen.KernelIdeal.Frame
import proofs.«102488_j39926015984295_2_alg».proof.Proof.Gen.ReferenceIdeal
import proofs.«102488_j39926015984295_2_alg».proof.Proof.Gen.Pre_finite_inputs
import proofs.«102488_j39926015984295_2_alg».proof.Proof.Gen.KernelIdeal.Value
import proofs.«102488_j39926015984295_2_alg».proof.Proof.Gen.ReferenceIdeal.Run
import proofs.«102488_j39926015984295_2_alg».proof.Proof.Gen.ReferenceIdeal.Read
import proofs.«102488_j39926015984295_2_alg».proof.Proof.KernelArrays
import proofs.«102488_j39926015984295_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel :=
  fun m ρ _ => Cert.Kernel.Gen.frame m ρ

theorem frame_ki : Cert.frame_KernelIdeal :=
  fun m ρ _ => Cert.KernelIdeal.Gen.frame m ρ

/-- The reference's frame is its run with the two results dropped. -/
theorem frame_ri : Cert.frame_ReferenceIdeal :=
  fun m ρ _ => (θ_run Cert.ReferenceIdeal.defs _ _).mono (fun _ h c => (h c).2.2)
    (Cert.ReferenceIdeal.Value.run (F := Ideal) m ρ)

/-- Both runs end with the two results at the specification's arrays of the arguments, and the arguments agree. -/
theorem algebraic [Cert.KernelIdeal.Facts] :
    Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v51_eq, Cert.ReferenceIdeal.RefSpec.out_eq, a0, a1, a2, a3, a4, a5, a6, a7]
  · obtain ⟨a0, a1, a2, a3, a4, a5, a6, a7⟩ := hagree c
    rw [Cert.ReferenceIdeal.Read.val_main_v46_eq, Cert.ReferenceIdeal.RefSpec.vnext_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
